-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S32 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S100000x64 .f32) (main_arg1 : IVec S2x1600000 32) (main_arg2 : FVec F S64x64 .f32) (main_arg3 : FVec F S64 .f32) (main_arg4 : FVec F S64x32 .f32) (main_arg5 : FVec F S32 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S10000x64 : Shape := ⟨2, ![10000, 64]⟩
abbrev S1700000x64 : Shape := ⟨2, ![1700000, 64]⟩
abbrev S1x64 : Shape := ⟨2, ![1, 64]⟩
abbrev S100000x32 : Shape := ⟨2, ![100000, 32]⟩
abbrev S10000x32 : Shape := ⟨2, ![10000, 32]⟩
abbrev S1700000x32 : Shape := ⟨2, ![1700000, 32]⟩
abbrev S1x32 : Shape := ⟨2, ![1, 32]⟩

abbrev nBuf : Space → Nat
  | .hbm => 72
  | .vmem => 11
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x64, .f32⟩
  | .hbm, ⟨29, _⟩ => ⟨S100000x64, .f32⟩
  | .hbm, ⟨30, _⟩ => ⟨S100000x64, .f32⟩
  | .hbm, ⟨31, _⟩ => ⟨S100000x64, .bf16⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000x64, .bf16⟩
  | .hbm, ⟨41, _⟩ => ⟨S1700000x64, .f32⟩
  | .hbm, ⟨42, _⟩ => ⟨S_, .f32⟩
  | .hbm, ⟨43, _⟩ => ⟨S100000x64, .f32⟩
  | .hbm, ⟨44, _⟩ => ⟨S1700000x1, .i32⟩
  | .hbm, ⟨45, _⟩ => ⟨S100000x64, .f32⟩
  | .hbm, ⟨46, _⟩ => ⟨S100000x64, .f32⟩
  | .hbm, ⟨47, _⟩ => ⟨S100000x64, .f32⟩
  | .hbm, ⟨48, _⟩ => ⟨S1x64, .f32⟩
  | .hbm, ⟨49, _⟩ => ⟨S100000x32, .f32⟩
  | .hbm, ⟨50, _⟩ => ⟨S100000x32, .f32⟩
  | .hbm, ⟨51, _⟩ => ⟨S100000x32, .f32⟩
  | .hbm, ⟨52, _⟩ => ⟨S100000x32, .bf16⟩
  | .hbm, ⟨53, _⟩ => ⟨S_, .i32⟩
  | .hbm, ⟨54, _⟩ => ⟨S1700000, .i32⟩
  | .hbm, ⟨55, _⟩ => ⟨S1700000, .i1⟩
  | .hbm, ⟨56, _⟩ => ⟨S_, .i32⟩
  | .hbm, ⟨57, _⟩ => ⟨S1700000, .i32⟩
  | .hbm, ⟨58, _⟩ => ⟨S1700000, .i32⟩
  | .hbm, ⟨59, _⟩ => ⟨S1700000, .i32⟩
  | .hbm, ⟨60, _⟩ => ⟨S1700000x1, .i32⟩
  | .hbm, ⟨61, _⟩ => ⟨S1700000x32, .bf16⟩
  | .hbm, ⟨62, _⟩ => ⟨S1700000x32, .f32⟩
  | .hbm, ⟨63, _⟩ => ⟨S_, .f32⟩
  | .hbm, ⟨64, _⟩ => ⟨S100000x32, .f32⟩
  | .hbm, ⟨65, _⟩ => ⟨S1700000x1, .i32⟩
  | .hbm, ⟨66, _⟩ => ⟨S100000x32, .f32⟩
  | .hbm, ⟨67, _⟩ => ⟨S100000x32, .f32⟩
  | .hbm, ⟨68, _⟩ => ⟨S100000x32, .f32⟩
  | .hbm, ⟨69, _⟩ => ⟨S1x32, .f32⟩
  | .hbm, ⟨70, _⟩ => ⟨S100000x32, .f32⟩
  | .hbm, ⟨71, _⟩ => ⟨S100000x32, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S64x32, .f32⟩
  | .local _ .vmem, ⟨9, _⟩ => ⟨S10000x32, .f32⟩
  | .local _ .vmem, ⟨10, _⟩ => ⟨S10000x32, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c : Ref sig .tc := ⟨.hbm, 32, rfl⟩
abbrev main_v20 : Ref sig .tc := ⟨.hbm, 33, rfl⟩
abbrev main_v21 : Ref sig .tc := ⟨.hbm, 34, rfl⟩
abbrev main_c_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_4 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_c_5 : Ref sig .tc := ⟨.hbm, 53, rfl⟩
abbrev main_v38 : Ref sig .tc := ⟨.hbm, 54, rfl⟩
abbrev main_v39 : Ref sig .tc := ⟨.hbm, 55, rfl⟩
abbrev main_c_6 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_7 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S100000_S100000x1_0 : S100000.BroadcastsInDim S100000x1 (![0] : Fin 1 → Fin S100000x1.rank)
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x32_S64x32_0_0 : ∀ a, (![0, 0] : Fin 2 → Nat) a + S64x32.size a ≤ S64x32.size a
  h_S64x32 : 0 < S64x32.numel
  inb_S10000x32_S10000x32_0_0 : ∀ a, (![0, 0] : Fin 2 → Nat) a + S10000x32.size a ≤ S10000x32.size a
  h_S10000x32 : 0 < S10000x32.numel
  bcast_S100000x1_S100000x32_0_1 : S100000x1.BroadcastsInDim S100000x32 (![0, 1] : Fin 2 → Fin S100000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S1700000x1_S1700000_n_0_0_1_wf : ScatterDims.WF S100000 S1700000x1 S1700000 [] [0] [0] 1
  dot_S10000x64_S64x64_S10000x64_1_0_0_1_n_n_wf : DotDims.WF S10000x64 S64x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x32_S10000x32_1_0_0_1_n_n_wf : DotDims.WF S10000x64 S64x32 S10000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x32.size a ≤ S64x32.size a
  hwx1_2 : ∀ i : grid1.Coords, EltTy.bits .f32 = 32 ∨ (Rect.block (s := S64x32) S64x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x32.size a ≤ S100000x32.size a
  hwx1_3 : ∀ i : grid1.Coords, EltTy.bits .f32 = 32 ∨ (Rect.block (s := S100000x32) S10000x32.size (cc1_transform_3 i) (hinb1_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v32) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v34) S10000x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x32 : Shape := ⟨2, ![100000, 32]⟩
abbrev S1700000x32 : Shape := ⟨2, ![1700000, 32]⟩
abbrev S1x32 : Shape := ⟨2, ![1, 32]⟩

abbrev nBuf : Space → Nat
  | .hbm => 129
  | .vmem => 0
  | .smem => 0
  | _ => 0

abbrev hbmTy0_0 (i : Nat) : BufTy := match i % 128 with
  | 0 => ⟨S100000x64, .f32⟩
  | 1 => ⟨S2x1600000, .i32⟩
  | 2 => ⟨S64x64, .f32⟩
  | 3 => ⟨S64, .f32⟩
  | 4 => ⟨S64x32, .f32⟩
  | 5 => ⟨S32, .f32⟩
  | 6 => ⟨S100000x64, .f32⟩
  | 7 => ⟨S1x1600000, .i32⟩
  | 8 => ⟨S1600000, .i32⟩
  | 9 => ⟨S1x1600000, .i32⟩
  | 10 => ⟨S1600000, .i32⟩
  | 11 => ⟨S100000, .i32⟩
  | 12 => ⟨S1700000, .i32⟩
  | 13 => ⟨S1700000, .i32⟩
  | 14 => ⟨S_, .f32⟩
  | 15 => ⟨S1700000, .f32⟩
  | 16 => ⟨S_, .f32⟩
  | 17 => ⟨S100000, .f32⟩
  | 18 => ⟨S1700000x1, .i32⟩
  | 19 => ⟨S100000, .f32⟩
  | 20 => ⟨S_, .f32⟩
  | 21 => ⟨S100000, .f32⟩
  | 22 => ⟨S100000, .i1⟩
  | 23 => ⟨S100000, .f32⟩
  | 24 => ⟨S_, .f32⟩
  | 25 => ⟨S_, .f32⟩
  | 26 => ⟨S100000, .f32⟩
  | 27 => ⟨S100000, .f32⟩
  | 28 => ⟨S_, .i32⟩
  | 29 => ⟨S1700000, .i32⟩
  | 30 => ⟨S1700000, .i1⟩
  | 31 => ⟨S_, .i32⟩
  | 32 => ⟨S1700000, .i32⟩
  | 33 => ⟨S1700000, .i32⟩
  | 34 => ⟨S1700000, .i32⟩
  | 35 => ⟨S1700000x1, .i32⟩
  | 36 => ⟨S1700000, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000, .f32⟩
  | 46 => ⟨S1700000, .f32⟩
  | 47 => ⟨S_, .i32⟩
  | 48 => ⟨S1700000, .i32⟩
  | 49 => ⟨S1700000, .i1⟩
  | 50 => ⟨S_, .i32⟩
  | 51 => ⟨S1700000, .i32⟩
  | 52 => ⟨S1700000, .i32⟩
  | 53 => ⟨S1700000, .i32⟩
  | 54 => ⟨S1700000x1, .i32⟩
  | 55 => ⟨S1700000x64, .f32⟩
  | 56 => ⟨S1700000x1, .f32⟩
  | 57 => ⟨S1700000x64, .f32⟩
  | 58 => ⟨S1700000x64, .f32⟩
  | 59 => ⟨S_, .f32⟩
  | 60 => ⟨S100000x64, .f32⟩
  | 61 => ⟨S1700000x1, .i32⟩
  | 62 => ⟨S100000x64, .f32⟩
  | 63 => ⟨S1x64, .f32⟩
  | 64 => ⟨S100000x64, .f32⟩
  | 65 => ⟨S100000x64, .f32⟩
  | 66 => ⟨S_, .f32⟩
  | 67 => ⟨S100000x64, .f32⟩
  | 68 => ⟨S100000x64, .f32⟩
  | 69 => ⟨S100000x32, .f32⟩
  | 70 => ⟨S1x1600000, .i32⟩
  | 71 => ⟨S1600000, .i32⟩
  | 72 => ⟨S1x1600000, .i32⟩
  | 73 => ⟨S1600000, .i32⟩
  | 74 => ⟨S100000, .i32⟩
  | 75 => ⟨S1700000, .i32⟩
  | 76 => ⟨S1700000, .i32⟩
  | 77 => ⟨S_, .f32⟩
  | 78 => ⟨S1700000, .f32⟩
  | 79 => ⟨S_, .f32⟩
  | 80 => ⟨S100000, .f32⟩
  | 81 => ⟨S1700000x1, .i32⟩
  | 82 => ⟨S100000, .f32⟩
  | 83 => ⟨S_, .f32⟩
  | 84 => ⟨S100000, .f32⟩
  | 85 => ⟨S100000, .i1⟩
  | 86 => ⟨S100000, .f32⟩
  | 87 => ⟨S_, .f32⟩
  | 88 => ⟨S_, .f32⟩
  | 89 => ⟨S100000, .f32⟩
  | 90 => ⟨S100000, .f32⟩
  | 91 => ⟨S_, .i32⟩
  | 92 => ⟨S1700000, .i32⟩
  | 93 => ⟨S1700000, .i1⟩
  | 94 => ⟨S_, .i32⟩
  | 95 => ⟨S1700000, .i32⟩
  | 96 => ⟨S1700000, .i32⟩
  | 97 => ⟨S1700000, .i32⟩
  | 98 => ⟨S1700000x1, .i32⟩
  | 99 => ⟨S1700000, .f32⟩
  | 100 => ⟨S_, .i32⟩
  | 101 => ⟨S1700000, .i32⟩
  | 102 => ⟨S1700000, .i1⟩
  | 103 => ⟨S_, .i32⟩
  | 104 => ⟨S1700000, .i32⟩
  | 105 => ⟨S1700000, .i32⟩
  | 106 => ⟨S1700000, .i32⟩
  | 107 => ⟨S1700000x1, .i32⟩
  | 108 => ⟨S1700000, .f32⟩
  | 109 => ⟨S1700000, .f32⟩
  | 110 => ⟨S_, .i32⟩
  | 111 => ⟨S1700000, .i32⟩
  | 112 => ⟨S1700000, .i1⟩
  | 113 => ⟨S_, .i32⟩
  | 114 => ⟨S1700000, .i32⟩
  | 115 => ⟨S1700000, .i32⟩
  | 116 => ⟨S1700000, .i32⟩
  | 117 => ⟨S1700000x1, .i32⟩
  | 118 => ⟨S1700000x32, .f32⟩
  | 119 => ⟨S1700000x1, .f32⟩
  | 120 => ⟨S1700000x32, .f32⟩
  | 121 => ⟨S1700000x32, .f32⟩
  | 122 => ⟨S_, .f32⟩
  | 123 => ⟨S100000x32, .f32⟩
  | 124 => ⟨S1700000x1, .i32⟩
  | 125 => ⟨S100000x32, .f32⟩
  | 126 => ⟨S1x32, .f32⟩
  | 127 => ⟨S100000x32, .f32⟩
  | _ => ⟨S100000x64, .f32⟩

abbrev hbmTy0_1 (i : Nat) : BufTy := match i % 128 with
  | 0 => ⟨S100000x32, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_9 : Ref sig .tc := ⟨.hbm, 77, rfl⟩
abbrev main_v56 : Ref sig .tc := ⟨.hbm, 78, rfl⟩
abbrev main_cst_10 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_11 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_12 : Ref sig .tc := ⟨.hbm, 87, rfl⟩
abbrev main_call2_v0 : Ref sig .tc := ⟨.hbm, 88, rfl⟩
abbrev main_call2_v1 : Ref sig .tc := ⟨.hbm, 89, rfl⟩
abbrev main_v63 : Ref sig .tc := ⟨.hbm, 90, rfl⟩
abbrev main_c_13 : Ref sig .tc := ⟨.hbm, 91, rfl⟩
abbrev main_v64 : Ref sig .tc := ⟨.hbm, 92, rfl⟩
abbrev main_v65 : Ref sig .tc := ⟨.hbm, 93, rfl⟩
abbrev main_c_14 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_c_15 : Ref sig .tc := ⟨.hbm, 100, rfl⟩
abbrev main_v71 : Ref sig .tc := ⟨.hbm, 101, rfl⟩
abbrev main_v72 : Ref sig .tc := ⟨.hbm, 102, rfl⟩
abbrev main_c_16 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_17 : Ref sig .tc := ⟨.hbm, 110, rfl⟩
abbrev main_v79 : Ref sig .tc := ⟨.hbm, 111, rfl⟩
abbrev main_v80 : Ref sig .tc := ⟨.hbm, 112, rfl⟩
abbrev main_c_18 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_19 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  dot_S100000x64_S64x64_S100000x64_1_0_0_1_n_n_wf : DotDims.WF S100000x64 S64x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x32_S100000x32_1_0_0_1_n_n_wf : DotDims.WF S100000x64 S64x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

class Facts : Prop extends Facts₀ where

variable [Facts]
-- ==== Proof.KernelRun.lean ====
/-
  The idealized kernel program's run with its RESULT named.

  The program is seven stretches: three of host operations, the first projection x·W1 as a region of ten row
  blocks, the host's normalise–gather–scatter of the first graph layer, the second region relu(a + b1)·W2, and the
  host's second graph layer with the bias. The buffer contents at every boundary are a fold from the launch memory;
  the run below states that every weakly fair execution ends with the result buffer at the last boundary's
  contents and with the six argument arrays as launched. What those contents ARE is read in the value modules.
-/
import proofs.«148862_j78297253806422_2_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the program terminates, nothing faulting; the result buffer ends at the last
    boundary's contents and each argument array as launched: the launch over the seven segments, the last thread
    state read against the final state. -/
theorem run_named : θ_run defs (onTc (τ := τ) (main (F := F))) ⟨m, fun _ => 0, ρ⟩ (fun r => ∀ c : Dev nD,
      r.2.mem ((c.tc : Thread nD τ).loc main_v53) = W7 m ρ c (Proc.devRef .tc main_v53)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v53 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.Gen

end
-- ==== Proof.KernelTerms.lean ====
/-
  The terms the kernel's host operations compute, named.

  From the edge list (two rows: sources and targets) the program builds, once, the edges with one self-loop per
  node appended (`srcAug`, `dstAug`), the degree of every node as the number of edges that land on it (ones added
  into zeros along the targets), and the normalising factor  1/√degree  (0 where the degree is not positive) as a
  column. Every one of these is a term of the edge list alone. Between the two regions the host turns the first projection `P`
  into the first layer's aggregate: scale the rows of `P` by the factor, round to the narrow format, gather along the
  sources, widen, add into zeros along the targets, scale the sums by the factor again (`aggregate64`); after the second
  region the same with 32 columns (`aggregate32`).
-/
import proofs.«148862_j78297253806422_2_alg».proof.KernelIdeal
import proofs.«148862_j78297253806422_2_alg».proof.Proof.Gen.KernelIdeal
import Idealize.ShloMosaic.PureOps.Ideal

noncomputable section

namespace Cert.KernelIdeal.HostValue

open Cert.KernelIdeal Cert.KernelIdeal.Gen Idealize.ShloMosaic

/-- The edges' sources followed by every node once (the self-loops). -/
def srcAug (x1 : (⟨S2x1600000, .i32⟩ : BufTy).Contents (Elt Ideal)) : (⟨S1700000, .i32⟩ : BufTy).Contents (Elt Ideal) :=
  concatenate S1700000 0 [⟨S1600000, shapeCast _ (extractStridedSlice S1x1600000 ![0, 0] x1 slices_S2x1600000_S1x1600000_0_0) shapeCasts_S1x1600000_S1600000⟩, ⟨S100000, iotaInDim S100000 32 0⟩] concatenates_S1600000_S100000_S1700000_d0

/-- The edges' targets followed by every node once. -/
def dstAug (x1 : (⟨S2x1600000, .i32⟩ : BufTy).Contents (Elt Ideal)) : (⟨S1700000, .i32⟩ : BufTy).Contents (Elt Ideal) :=
  concatenate S1700000 0 [⟨S1600000, shapeCast _ (extractStridedSlice S1x1600000 ![1, 0] x1 slices_S2x1600000_S1x1600000_1_0) shapeCasts_S1x1600000_S1600000⟩, ⟨S100000, iotaInDim S100000 32 0⟩] concatenates_S1600000_S100000_S1700000_d0

/-- An index vector as the one-column matrix a gather or a scatter takes. -/
def col (v : (⟨S1700000, .i32⟩ : BufTy).Contents (Elt Ideal)) : (⟨S1700000x1, .i32⟩ : BufTy).Contents (Elt Ideal) :=
  broadcastInDim S1700000x1 ![0] bcast_S1700000_S1700000x1_0 v

/-- A negative index counted from the end: `v < 0 ? v + 100000 : v`. -/
def wrapNeg (v : (⟨S1700000, .i32⟩ : BufTy).Contents (Elt Ideal)) : (⟨S1700000, .i32⟩ : BufTy).Contents (Elt Ideal) :=
  select (cmpi .slt v (broadcastInDim S1700000 ![] bcast_S_S1700000 (constantI S_ 32 0#32)))
    (addi v (broadcastInDim S1700000 ![] bcast_S_S1700000 (constantI S_ 32 100000#32))) v

/-- The degree of every node: ones added into zeros along the targets. -/
def degree (x1 : (⟨S2x1600000, .i32⟩ : BufTy).Contents (Elt Ideal)) : (⟨S100000, .f32⟩ : BufTy).Contents (Elt Ideal) :=
  Host.scatterAdd (F := Ideal) scatter_S100000_S1700000x1_S1700000_n_0_0_1
    (broadcastInDim S100000 ![] bcast_S_S100000 (constant (F := Ideal) S_ .f32 0x00000000#32))
    (col (dstAug x1))
    (broadcastInDim S1700000 ![] bcast_S_S1700000 (constant (F := Ideal) S_ .f32 0x3F800000#32))

/-- The normalising factor of every node: `1/√degree` where the degree is positive, else `0`. -/
def factor (x1 : (⟨S2x1600000, .i32⟩ : BufTy).Contents (Elt Ideal)) : (⟨S100000, .f32⟩ : BufTy).Contents (Elt Ideal) :=
  select (cmpf (F := Ideal) .ogt (degree x1) (broadcastInDim S100000 ![] bcast_S_S100000 (constant (F := Ideal) S_ .f32 0x00000000#32)))
    (Host.rsqrt (F := Ideal) (φ := .f32) (degree x1))
    (broadcastInDim S100000 ![] bcast_S_S100000 (id (constant (F := Ideal) S_ .f32 0x00000000#32)))

/-- The factor as a column. -/
def factorCol (x1 : (⟨S2x1600000, .i32⟩ : BufTy).Contents (Elt Ideal)) : (⟨S100000x1, .f32⟩ : BufTy).Contents (Elt Ideal) :=
  broadcastInDim S100000x1 ![0] bcast_S100000_S100000x1_0 (factor x1)

/-- The first layer's aggregation of a 64-column node array, as the host writes it. -/
def aggregate64 (x1 : (⟨S2x1600000, .i32⟩ : BufTy).Contents (Elt Ideal)) (P : FVec Ideal S100000x64 .f32) : FVec Ideal S100000x64 .f32 :=
  mulf (broadcastInDim S100000x64 ![0, 1] bcast_S100000x1_S100000x64_0_1 (factorCol x1))
    (Host.scatterAdd (F := Ideal) scatter_S100000x64_S1700000x1_S1700000x64_1_0_0_1
      (broadcastInDim S100000x64 ![] bcast_S_S100000x64 (constant (F := Ideal) S_ .f32 0x00000000#32))
      (col (dstAug x1))
      (extf .f32 (Host.gather gather_S100000x64_S1700000x1_S1700000x64_1_0_n_n_0_1_164
        (truncf .bf16 (mulf P (broadcastInDim S100000x64 ![0, 1] bcast_S100000x1_S100000x64_0_1 (factorCol x1))) bitsLt_bf16_f32)
        (col (wrapNeg (srcAug x1)))) bitsLt_bf16_f32))

/-- The second layer's aggregation of a 32-column node array. -/
def aggregate32 (x1 : (⟨S2x1600000, .i32⟩ : BufTy).Contents (Elt Ideal)) (P : FVec Ideal S100000x32 .f32) : FVec Ideal S100000x32 .f32 :=
  mulf (broadcastInDim S100000x32 ![0, 1] bcast_S100000x1_S100000x32_0_1 (factorCol x1))
    (Host.scatterAdd (F := Ideal) scatter_S100000x32_S1700000x1_S1700000x32_1_0_0_1
      (broadcastInDim S100000x32 ![] bcast_S_S100000x32 (constant (F := Ideal) S_ .f32 0x00000000#32))
      (col (dstAug x1))
      (extf .f32 (Host.gather gather_S100000x32_S1700000x1_S1700000x32_1_0_n_n_0_1_132
        (truncf .bf16 (mulf P (broadcastInDim S100000x32 ![0, 1] bcast_S100000x1_S100000x32_0_1 (factorCol x1))) bitsLt_bf16_f32)
        (col (wrapNeg (srcAug x1)))) bitsLt_bf16_f32))

end Cert.KernelIdeal.HostValue

end
-- ==== Proof.KernelEntry.lean ====
/-
  What the first projection's region finds in memory: the host operations before it, read back. The edge lists with
  self-loops, and the normalising factor as a column, are the named terms of the edge list; the float arguments are as
  launched.
-/
import proofs.«148862_j78297253806422_2_alg».proof.Proof.KernelRun
import proofs.«148862_j78297253806422_2_alg».proof.Proof.KernelTerms
import Idealize.ShloMosaic.Lib.StableHlo.Run

noncomputable section

namespace Cert.KernelIdeal.HostValue

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg)

/-! ## The contents at the first region's entry -/

/-- The comparison "degree > 0", the inverse root of the degree and the zero word after the first stretch. -/
theorem stage0_positive (c : Dev nD) :
    W1 (F := Ideal) m ρ c (Proc.devRef .tc main_v12)
      = cmpf (F := Ideal) .ogt (degree (m ((c.tc : Thread nD τ).loc main_arg1)))
          (broadcastInDim S100000 ![] bcast_S_S100000 (constant (F := Ideal) S_ .f32 0x00000000#32)) := by
  show StableHlo.after hostOps0 (W0 m ρ c) _ = _
  simp only [hostOps0]
  after_results
  rfl
theorem stage0_rsqrt (c : Dev nD) :
    W1 (F := Ideal) m ρ c (Proc.devRef .tc main_v13)
      = Host.rsqrt (F := Ideal) (φ := .f32) (degree (m ((c.tc : Thread nD τ).loc main_arg1))) := by
  show StableHlo.after hostOps0 (W0 m ρ c) _ = _
  simp only [hostOps0]
  after_results
  rfl
theorem stage0_zero (c : Dev nD) :
    W1 (F := Ideal) m ρ c (Proc.devRef .tc main_cst_2) = constant (F := Ideal) S_ .f32 0x00000000#32 := by
  show StableHlo.after hostOps0 (W0 m ρ c) _ = _
  simp only [hostOps0]
  after_results

/-- The selection `mask ? a : 0` as the outlined function writes it, between its typed buffers, is the plain selection:
    a value carried to a buffer of its own type and back is the value. -/
theorem where_plain (A : (⟨S100000, .i1⟩ : BufTy).Contents (Elt Ideal)) (X : (⟨S100000, .f32⟩ : BufTy).Contents (Elt Ideal))
    (K : (⟨S_, .f32⟩ : BufTy).Contents (Elt Ideal)) :
    (TRef.of (sig := sig) (T := ⟨S100000, .f32⟩) main_v14).toBuf (select ((TRef.of (sig := sig) (T := ⟨S100000, .i1⟩) main_v12).ofBuf A)
        ((TRef.of (sig := sig) (T := ⟨S100000, .f32⟩) main_v13).ofBuf X)
        ((TRef.of (sig := sig) (T := ⟨S100000, .f32⟩) main_call0_v1).ofBuf ((TRef.of (sig := sig) (T := ⟨S100000, .f32⟩) main_call0_v1).toBuf
          (broadcastInDim S100000 ![] bcast_S_S100000
            ((TRef.of (sig := sig) (T := ⟨S_, .f32⟩) main_call0_v0).ofBuf ((TRef.of (sig := sig) (T := ⟨S_, .f32⟩) main_call0_v0).toBuf
              (id ((TRef.of (sig := sig) (T := ⟨S_, .f32⟩) main_cst_2).ofBuf K))))))))
      = select A X (broadcastInDim S100000 ![] bcast_S_S100000 (id K)) := rfl

/-- The factor vector after the selection: its three operands are named first, so that the two sides meet on
    identical terms and nothing of the degree is opened. -/
theorem stage1_factor (c : Dev nD) :
    W2 (F := Ideal) m ρ c (Proc.devRef .tc main_v14) = factor (m ((c.tc : Thread nD τ).loc main_arg1)) := by
  have h12 := stage0_positive m ρ c
  have h13 := stage0_rsqrt m ρ c
  have h2 := stage0_zero m ρ c
  show StableHlo.after hostOps0_1 (W1 m ρ c) _ = _
  generalize W1 m ρ c = V1 at h12 h13 h2 ⊢
  simp only [hostOps0_1]
  after_results
  rw [h12, h13, h2]
  unfold factor
  exact where_plain _ _ _

theorem entry_factorCol (c : Dev nD) :
    W3 (F := Ideal) m ρ c (Proc.devRef .tc main_v15) = factorCol (m ((c.tc : Thread nD τ).loc main_arg1)) := by
  have h14 := stage1_factor m ρ c
  show StableHlo.after hostOps0_2 (W2 m ρ c) _ = _
  generalize W2 m ρ c = V2 at h14 ⊢
  simp only [hostOps0_2]
  after_results
  rw [h14]
  rfl

theorem entry_src (c : Dev nD) :
    W3 (F := Ideal) m ρ c (Proc.devRef .tc main_v5) = srcAug (m ((c.tc : Thread nD τ).loc main_arg1)) := by
  show StableHlo.after hostOps0_2 (StableHlo.after hostOps0_1 (StableHlo.after hostOps0 (W0 m ρ c))) _ = _
  simp only [hostOps0_2, hostOps0_1, hostOps0]
  after_results
  rfl

theorem entry_dst (c : Dev nD) :
    W3 (F := Ideal) m ρ c (Proc.devRef .tc main_v6) = dstAug (m ((c.tc : Thread nD τ).loc main_arg1)) := by
  show StableHlo.after hostOps0_2 (StableHlo.after hostOps0_1 (StableHlo.after hostOps0 (W0 m ρ c))) _ = _
  simp only [hostOps0_2, hostOps0_1, hostOps0]
  after_results
  rfl

theorem entry_arg0 (c : Dev nD) :
    W3 (F := Ideal) m ρ c (Proc.devRef .tc main_arg0) = m ((c.tc : Thread nD τ).loc main_arg0) := by
  show StableHlo.after hostOps0_2 (StableHlo.after hostOps0_1 (StableHlo.after hostOps0 (W0 m ρ c))) _ = _
  simp only [hostOps0_2, hostOps0_1, hostOps0]
  after_results

theorem entry_arg2 (c : Dev nD) :
    W3 (F := Ideal) m ρ c (Proc.devRef .tc main_arg2) = m ((c.tc : Thread nD τ).loc main_arg2) := by
  show StableHlo.after hostOps0_2 (StableHlo.after hostOps0_1 (StableHlo.after hostOps0 (W0 m ρ c))) _ = _
  simp only [hostOps0_2, hostOps0_1, hostOps0]
  after_results

theorem entry_arg3 (c : Dev nD) :
    W3 (F := Ideal) m ρ c (Proc.devRef .tc main_arg3) = m ((c.tc : Thread nD τ).loc main_arg3) := by
  show StableHlo.after hostOps0_2 (StableHlo.after hostOps0_1 (StableHlo.after hostOps0 (W0 m ρ c))) _ = _
  simp only [hostOps0_2, hostOps0_1, hostOps0]
  after_results

theorem entry_arg4 (c : Dev nD) :
    W3 (F := Ideal) m ρ c (Proc.devRef .tc main_arg4) = m ((c.tc : Thread nD τ).loc main_arg4) := by
  show StableHlo.after hostOps0_2 (StableHlo.after hostOps0_1 (StableHlo.after hostOps0 (W0 m ρ c))) _ = _
  simp only [hostOps0_2, hostOps0_1, hostOps0]
  after_results

theorem entry_arg5 (c : Dev nD) :
    W3 (F := Ideal) m ρ c (Proc.devRef .tc main_arg5) = m ((c.tc : Thread nD τ).loc main_arg5) := by
  show StableHlo.after hostOps0_2 (StableHlo.after hostOps0_1 (StableHlo.after hostOps0 (W0 m ρ c))) _ = _
  simp only [hostOps0_2, hostOps0_1, hostOps0]
  after_results

end Cert.KernelIdeal.HostValue

end
-- ==== Proof.KernelStages.lean ====
/-
  The host's share of the kernel's program, stage by stage: what each later boundary holds as a term of what the
  boundary before it holds.

  Between the two regions the host turns the first projection `P` into the first layer's aggregate: scale the rows of
  `P` by the normalising factor, round to the narrow format, gather along the sources, widen, add into zeros along the
  targets, scale the sums by the factor again (`aggregate64`); the bias becomes a one-row matrix. After the second
  region the same is done to the second projection with 32 columns (`aggregate32`) and the second bias is added.
-/
import proofs.«148862_j78297253806422_2_alg».proof.Proof.KernelEntry

noncomputable section

namespace Cert.KernelIdeal.HostValue

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg)

/-! ## After the first region: its output array is what the region leaves, everything else as entered -/

theorem exit0_factorCol (c : Dev nD) :
    W4 (F := Ideal) m ρ c (Proc.devRef .tc main_v15) = factorCol (m ((c.tc : Thread nD τ).loc main_arg1)) :=
  (W4_of_ne m ρ c main_v15 (by decide)).trans (entry_factorCol m ρ c)
theorem exit0_src (c : Dev nD) :
    W4 (F := Ideal) m ρ c (Proc.devRef .tc main_v5) = srcAug (m ((c.tc : Thread nD τ).loc main_arg1)) :=
  (W4_of_ne m ρ c main_v5 (by decide)).trans (entry_src m ρ c)
theorem exit0_dst (c : Dev nD) :
    W4 (F := Ideal) m ρ c (Proc.devRef .tc main_v6) = dstAug (m ((c.tc : Thread nD τ).loc main_arg1)) :=
  (W4_of_ne m ρ c main_v6 (by decide)).trans (entry_dst m ρ c)
theorem exit0_arg3 (c : Dev nD) :
    W4 (F := Ideal) m ρ c (Proc.devRef .tc main_arg3) = m ((c.tc : Thread nD τ).loc main_arg3) :=
  (W4_of_ne m ρ c main_arg3 (by decide)).trans (entry_arg3 m ρ c)
theorem exit0_arg4 (c : Dev nD) :
    W4 (F := Ideal) m ρ c (Proc.devRef .tc main_arg4) = m ((c.tc : Thread nD τ).loc main_arg4) :=
  (W4_of_ne m ρ c main_arg4 (by decide)).trans (entry_arg4 m ρ c)
theorem exit0_arg5 (c : Dev nD) :
    W4 (F := Ideal) m ρ c (Proc.devRef .tc main_arg5) = m ((c.tc : Thread nD τ).loc main_arg5) :=
  (W4_of_ne m ρ c main_arg5 (by decide)).trans (entry_arg5 m ρ c)
/-- The first projection's array after the region. -/
theorem exit0_proj (c : Dev nD) :
    W4 (F := Ideal) m ρ c (Proc.devRef .tc main_v16) = (dat0 (V3 m ρ) c).arrAt 2 cfg0.N :=
  W4_arr m ρ c 2

/-! ## At the second region's entry -/

set_option maxHeartbeats 4000000 in
/-- The second region's first operand: the first layer's aggregate of the first projection. -/
theorem entry1_agg (c : Dev nD) :
    W5 (F := Ideal) m ρ c (Proc.devRef .tc main_v32)
      = aggregate64 (m ((c.tc : Thread nD τ).loc main_arg1)) (W4 m ρ c (Proc.devRef .tc main_v16)) := by
  show StableHlo.after hostOps1 (W4 m ρ c) _ = _
  simp only [hostOps1]
  after_results_simp
  rw [exit0_factorCol, exit0_src, exit0_dst]
  rfl

set_option maxHeartbeats 4000000 in
/-- Its second operand: the first bias as a one-row matrix. -/
theorem entry1_bias (c : Dev nD) :
    W5 (F := Ideal) m ρ c (Proc.devRef .tc main_v33)
      = shapeCast S1x64 (m ((c.tc : Thread nD τ).loc main_arg3)) shapeCasts_S64_S1x64 := by
  show StableHlo.after hostOps1 (W4 m ρ c) _ = _
  simp only [hostOps1]
  after_results_simp
  rw [exit0_arg3]
  rfl

set_option maxHeartbeats 4000000 in
theorem entry1_arg4 (c : Dev nD) :
    W5 (F := Ideal) m ρ c (Proc.devRef .tc main_arg4) = m ((c.tc : Thread nD τ).loc main_arg4) := by
  show StableHlo.after hostOps1 (W4 m ρ c) _ = _
  simp only [hostOps1]
  after_results_simp
  exact exit0_arg4 m ρ c

set_option maxHeartbeats 4000000 in
theorem entry1_factorCol (c : Dev nD) :
    W5 (F := Ideal) m ρ c (Proc.devRef .tc main_v15) = factorCol (m ((c.tc : Thread nD τ).loc main_arg1)) := by
  show StableHlo.after hostOps1 (W4 m ρ c) _ = _
  simp only [hostOps1]
  after_results_simp
  exact exit0_factorCol m ρ c

set_option maxHeartbeats 4000000 in
theorem entry1_src (c : Dev nD) :
    W5 (F := Ideal) m ρ c (Proc.devRef .tc main_v5) = srcAug (m ((c.tc : Thread nD τ).loc main_arg1)) := by
  show StableHlo.after hostOps1 (W4 m ρ c) _ = _
  simp only [hostOps1]
  after_results_simp
  exact exit0_src m ρ c

set_option maxHeartbeats 4000000 in
theorem entry1_dst (c : Dev nD) :
    W5 (F := Ideal) m ρ c (Proc.devRef .tc main_v6) = dstAug (m ((c.tc : Thread nD τ).loc main_arg1)) := by
  show StableHlo.after hostOps1 (W4 m ρ c) _ = _
  simp only [hostOps1]
  after_results_simp
  exact exit0_dst m ρ c

set_option maxHeartbeats 4000000 in
theorem entry1_arg5 (c : Dev nD) :
    W5 (F := Ideal) m ρ c (Proc.devRef .tc main_arg5) = m ((c.tc : Thread nD τ).loc main_arg5) := by
  show StableHlo.after hostOps1 (W4 m ρ c) _ = _
  simp only [hostOps1]
  after_results_simp
  exact exit0_arg5 m ρ c

/-! ## After the second region, and the result -/

theorem exit1_factorCol (c : Dev nD) :
    W6 (F := Ideal) m ρ c (Proc.devRef .tc main_v15) = factorCol (m ((c.tc : Thread nD τ).loc main_arg1)) :=
  (W6_of_ne m ρ c main_v15 (by decide)).trans (entry1_factorCol m ρ c)
theorem exit1_src (c : Dev nD) :
    W6 (F := Ideal) m ρ c (Proc.devRef .tc main_v5) = srcAug (m ((c.tc : Thread nD τ).loc main_arg1)) :=
  (W6_of_ne m ρ c main_v5 (by decide)).trans (entry1_src m ρ c)
theorem exit1_dst (c : Dev nD) :
    W6 (F := Ideal) m ρ c (Proc.devRef .tc main_v6) = dstAug (m ((c.tc : Thread nD τ).loc main_arg1)) :=
  (W6_of_ne m ρ c main_v6 (by decide)).trans (entry1_dst m ρ c)
theorem exit1_arg5 (c : Dev nD) :
    W6 (F := Ideal) m ρ c (Proc.devRef .tc main_arg5) = m ((c.tc : Thread nD τ).loc main_arg5) :=
  (W6_of_ne m ρ c main_arg5 (by decide)).trans (entry1_arg5 m ρ c)
/-- The second projection's array after the region. -/
theorem exit1_hidden (c : Dev nD) :
    W6 (F := Ideal) m ρ c (Proc.devRef .tc main_v34) = (dat1 (V5 m ρ) c).arrAt 3 cfg1.N :=
  W6_arr m ρ c 3

set_option maxHeartbeats 4000000 in
/-- THE RESULT: the second layer's aggregate of the second projection, plus the second bias along rows. -/
theorem result_term (c : Dev nD) :
    W7 (F := Ideal) m ρ c (Proc.devRef .tc main_v53)
      = addf (aggregate32 (m ((c.tc : Thread nD τ).loc main_arg1)) (W6 m ρ c (Proc.devRef .tc main_v34)))
          (broadcastInDim S100000x32 ![0, 1] bcast_S1x32_S100000x32_0_1
            (broadcastInDim S1x32 ![1] bcast_S32_S1x32_1 (m ((c.tc : Thread nD τ).loc main_arg5)))) := by
  show StableHlo.after hostOps2 (W6 m ρ c) _ = _
  simp only [hostOps2]
  after_results_simp
  rw [exit1_factorCol, exit1_src, exit1_dst, exit1_arg5]
  rfl

end Cert.KernelIdeal.HostValue

end
-- ==== Proof.LibScatterGather.lean ====
/-
  Row gathers and row scatters of StableHLO, read at an index, and the one law of the extended reals
  that lets a non-negative finite factor cross an accumulating scatter.

  * a gather of whole rows (`x[idx]` on the leading axis of a matrix, or of a vector): result row e is
    operand row `idx e`, read signed and clamped into the operand;
  * an accumulating scatter of whole rows: update row e lands on operand row `idx e` (read signed, not
    clamped) when that is a row of the operand, and nowhere otherwise;
  * on the extended reals multiplication by c distributes over a finite sum when 0 ≤ c < ⊤, so scaling
    every update that lands on an element by that element's factor scales the accumulated sum.
-/
import Idealize.ShloMosaic.PureOps.Ideal
import Idealize.ShloMosaic.PureOps.Ideal.Laws
import Idealize.ShloMosaic.Lib.ValueIdx

noncomputable section

namespace Cert.ScatterGather

open Idealize.ShloMosaic Idealize.ShloMosaic.ValueIdx

/-! ## Sums on the extended reals -/

/-- A factor `0 ≤ c < ⊤` distributes over a finite sum of extended reals. -/
theorem sum_mul_of_nonneg_ne_top {ι : Type} (s : Finset ι) (f : ι → EReal) {c : EReal} (h0 : 0 ≤ c) (ht : c ≠ ⊤) :
    (∑ j ∈ s, f j) * c = ∑ j ∈ s, f j * c := by
  classical
  induction s using Finset.induction_on with
  | empty => simp
  | insert a s ha ih => rw [Finset.sum_insert ha, Finset.sum_insert ha, EReal.right_distrib_of_nonneg_of_ne_top h0 ht, ih]

/-- An accumulating scatter into zeros whose every landing update carries the factor of the element it
    lands on: the factor comes out of the accumulated sum. Only an element some update lands on needs
    its factor non-negative and finite: where nothing lands both sides are zero. -/
theorem hostScatterAdd_zero_mul {s si su : Shape} (d : ScatterDims s si su) {w : Nat} (idx : IVec si w)
    (u u' : su.Idx → EReal) (c : s.Idx → EReal)
    (hc : ∀ j i, d.resultIdx? j idx = some i → 0 ≤ c i ∧ c i ≠ ⊤)
    (h : ∀ j i, d.resultIdx? j idx = some i → u j = u' j * c i) (i : s.Idx) :
    Ideal.hostScatterAdd d (fun _ => 0) idx u i = Ideal.hostScatterAdd d (fun _ => 0) idx u' i * c i := by
  unfold Ideal.hostScatterAdd
  simp only [zero_add]
  by_cases hne : (Finset.univ.filter (fun j => d.resultIdx? j idx = some i)).Nonempty
  · obtain ⟨j0, hj0⟩ := hne
    have hci := hc j0 i (Finset.mem_filter.mp hj0).2
    rw [sum_mul_of_nonneg_ne_top _ _ hci.1 hci.2]
    exact Finset.sum_congr rfl (fun j hj => h j i (Finset.mem_filter.mp hj).2)
  · rw [Finset.not_nonempty_iff_eq_empty.mp hne]; simp

/-- The inverse square root of a positive count is a non-negative real. -/
theorem rsqrt_count {ι : Type} (s : Finset ι) (hs : s.Nonempty) :
    0 ≤ Ideal.rsqrt (0 + ∑ _j ∈ s, (1 : EReal)) ∧ Ideal.rsqrt (0 + ∑ _j ∈ s, (1 : EReal)) ≠ ⊤ := by
  have hcard : 0 < s.card := Finset.card_pos.mpr hs
  have hsum : (0 + ∑ _j ∈ s, (1 : EReal)) = ((s.card : ℝ) : EReal) := by
    rw [zero_add, Finset.sum_const, EReal.nsmul_eq_mul, mul_one]; rfl
  have hpos : (0 : ℝ) < (s.card : ℝ) := by exact_mod_cast hcard
  rw [hsum, Ideal.rsqrt_coe, if_neg (not_lt.mpr hpos.le), if_neg hpos.ne']
  exact ⟨by exact_mod_cast inv_nonneg.mpr (Real.sqrt_nonneg _), EReal.coe_ne_top _⟩

/-! ## A gather of rows -/

section Gather
variable {α : Type} {N M C w : Nat}

/-- `x[idx]` on the leading axis of `x : [N, C]` at `idx : [M]` carried as `[M, 1]`. -/
abbrev rowsDims (N M C : Nat) (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- The row a gather reads for result row `e`: the start index read signed, clamped into `[0, N - 1]`. -/
def clampRow (N : Nat) (hN : 0 < N) {M w : Nat} (idx : IVec ⟨2, ![M, 1]⟩ w) (e : Fin M) : Fin N :=
  ⟨min (idx (ix2 e (0 : Fin 1))).toInt.toNat (N - 1), by omega⟩

/-- THE ROW GATHER READ AT `(e, j)`: the operand at row `clampRow … e`, column `j`. -/
theorem gather_rows_apply (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (y : (⟨2, ![M, C]⟩ : Shape).Idx) :
    Host.gather (rowsDims N M C wf) x idx y = x (ix2 (clampRow N hN idx (y 0)) (y 1)) := by
  unfold Host.gather
  congr 1
  funext a
  refine Fin.ext ?_
  match a with
  | ⟨0, _⟩ =>
    show (rowsDims N M C wf).start y idx 0 + (rowsDims N M C wf).batchCoord y 0 + (rowsDims N M C wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N M C wf).startIndexMap from List.mem_singleton.mpr rfl)]
    have hsi : (rowsDims N M C wf).siIdx y ⟨List.idxOf (0 : Fin 2) (rowsDims N M C wf).startIndexMap,
        List.idxOf_lt_length_iff.2 (List.mem_singleton.mpr rfl)⟩ = ix2 (y 0) (0 : Fin 1) := by
      funext b; refine Fin.ext ?_
      match b with
      | ⟨0, _⟩ => rfl
      | ⟨1, _⟩ => rfl
    rw [hsi]
    rfl
  | ⟨1, _⟩ =>
    show (rowsDims N M C wf).start y idx 1 + (rowsDims N M C wf).batchCoord y 1 + (rowsDims N M C wf).offCoord y 1 = (y 1).val
    rw [GatherDims.batchCoord_eq_zero _ _ _ List.not_mem_nil]
    unfold GatherDims.start
    rw [dif_neg (show (1 : Fin 2) ∉ ([0] : List (Fin 2)) by decide)]
    simp only [Nat.zero_add, Nat.add_zero]
    unfold GatherDims.offCoord
    rw [dif_pos ((GatherDims.mem_sKept _ _).mpr ⟨(show (1 : Fin 2) ∉ ([0] : List (Fin 2)) by decide), List.not_mem_nil⟩)]
    rfl

/-- `x[idx]` of a vector `x : [N]` at `idx : [M]` carried as `[M, 1]`. -/
abbrev flatDims (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- THE VECTOR GATHER READ AT `e`: the operand at `clampRow … e`. -/
theorem gather_flat_apply (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (y : (⟨1, ![M]⟩ : Shape).Idx) :
    Host.gather (flatDims N M wf) x idx y = x (ix1 (clampRow N hN idx (y 0))) := by
  unfold Host.gather
  congr 1
  funext a
  obtain rfl : a = 0 := Subsingleton.elim _ _
  refine Fin.ext ?_
  show (flatDims N M wf).start y idx 0 + (flatDims N M wf).batchCoord y 0 + (flatDims N M wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatDims N M wf).startIndexMap from List.mem_singleton.mpr rfl)]
  have hsi : (flatDims N M wf).siIdx y ⟨List.idxOf (0 : Fin 1) (flatDims N M wf).startIndexMap,
      List.idxOf_lt_length_iff.2 (List.mem_singleton.mpr rfl)⟩ = ix2 (y 0) (0 : Fin 1) := by
    funext b; refine Fin.ext ?_
    match b with
    | ⟨0, _⟩ => rfl
    | ⟨1, _⟩ => rfl
  rw [hsi]
  rfl

end Gather

/-! ## An accumulating scatter of rows -/

section Scatter
variable {N M C w : Nat}

/-- `x.at[idx].add(u)` on the leading axis of `x : [N, C]`, `idx : [M]` carried as `[M, 1]`, `u : [M, C]`. -/
abbrev rowsScatter (N M C : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

theorem rowsScatter_start0 (wf : ScatterDims.WF ⟨2, ![N, C]⟩ ⟨2, ![M, 1]⟩ ⟨2, ![M, C]⟩ [1] [0] [0] 1)
    (j : (⟨2, ![M, C]⟩ : Shape).Idx) (idx : IVec ⟨2, ![M, 1]⟩ w) :
    (rowsScatter N M C wf).start j idx 0 = (idx (ix2 (j 0) (0 : Fin 1))).toInt := by
  unfold ScatterDims.start
  rw [dif_pos (show (0 : Fin 2) ∈ (rowsScatter N M C wf).scatterDimsToOperandDims from List.mem_singleton.mpr rfl)]
  have hsi : (rowsScatter N M C wf).siIdx j ⟨List.idxOf (0 : Fin 2) (rowsScatter N M C wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

theorem rowsScatter_start1 (wf : ScatterDims.WF ⟨2, ![N, C]⟩ ⟨2, ![M, 1]⟩ ⟨2, ![M, C]⟩ [1] [0] [0] 1)
    (j : (⟨2, ![M, C]⟩ : Shape).Idx) (idx : IVec ⟨2, ![M, 1]⟩ w) :
    (rowsScatter N M C wf).start j idx 1 = 0 := by
  unfold ScatterDims.start
  rw [dif_neg (show (1 : Fin 2) ∉ ([0] : List (Fin 2)) by decide)]

theorem rowsScatter_window0 (wf : ScatterDims.WF ⟨2, ![N, C]⟩ ⟨2, ![M, 1]⟩ ⟨2, ![M, C]⟩ [1] [0] [0] 1)
    (j : (⟨2, ![M, C]⟩ : Shape).Idx) : (rowsScatter N M C wf).window j 0 = 0 := by
  unfold ScatterDims.window
  have h : (0 : Fin 2) ∉ (rowsScatter N M C wf).sKept := by
    show (0 : Fin 2) ∉ ([1] : List (Fin 2)); decide
  rw [dif_neg h]

theorem rowsScatter_window1 (wf : ScatterDims.WF ⟨2, ![N, C]⟩ ⟨2, ![M, 1]⟩ ⟨2, ![M, C]⟩ [1] [0] [0] 1)
    (j : (⟨2, ![M, C]⟩ : Shape).Idx) : (rowsScatter N M C wf).window j 1 = (j 1).val := by
  unfold ScatterDims.window
  have h : (1 : Fin 2) ∈ (rowsScatter N M C wf).sKept := by
    show (1 : Fin 2) ∈ ([1] : List (Fin 2)); decide
  rw [dif_pos h]
  rfl

/-- WHERE A ROW UPDATE LANDS: element `(e, k)` of the updates lands on `(n, k')` exactly when the index of
    row `e`, read signed, is `n` and `k = k'`. -/
theorem rowsScatter_resultIdx?_eq_some_iff (wf : ScatterDims.WF ⟨2, ![N, C]⟩ ⟨2, ![M, 1]⟩ ⟨2, ![M, C]⟩ [1] [0] [0] 1)
    (j : (⟨2, ![M, C]⟩ : Shape).Idx) (idx : IVec ⟨2, ![M, 1]⟩ w) (i : (⟨2, ![N, C]⟩ : Shape).Idx) :
    (rowsScatter N M C wf).resultIdx? j idx = some i ↔
      (idx (ix2 (j 0) (0 : Fin 1))).toInt = ((i 0).val : Int) ∧ (j 1).val = (i 1).val := by
  have hi0 : (i 0).val < N := (i 0).isLt
  have hj1 : (j 1).val < C := (j 1).isLt
  unfold ScatterDims.resultIdx?
  split
  · rename_i h
    rw [Option.some.injEq]
    constructor
    · intro e
      have e0 := congrArg (fun f => (f 0).val) e
      have e1 := congrArg (fun f => (f 1).val) e
      simp only [rowsScatter_start0, rowsScatter_start1, rowsScatter_window0, rowsScatter_window1] at e0 e1
      have h0 := h 0
      simp only [rowsScatter_start0, rowsScatter_window0] at h0
      constructor
      · omega
      · omega
    · rintro ⟨e0, e1⟩
      funext a
      refine Fin.ext ?_
      match a with
      | ⟨0, _⟩ =>
        show ((rowsScatter N M C wf).start j idx 0 + ((rowsScatter N M C wf).window j 0 : Int)).toNat = (i 0).val
        rw [rowsScatter_start0, rowsScatter_window0, e0]; omega
      | ⟨1, _⟩ =>
        show ((rowsScatter N M C wf).start j idx 1 + ((rowsScatter N M C wf).window j 1 : Int)).toNat = (i 1).val
        rw [rowsScatter_start1, rowsScatter_window1]; omega
  · rename_i h
    constructor
    · intro e; exact absurd e (by simp)
    · rintro ⟨e0, e1⟩
      exfalso; apply h
      intro a
      match a with
      | ⟨0, _⟩ =>
        show 0 ≤ (rowsScatter N M C wf).start j idx 0 + ((rowsScatter N M C wf).window j 0 : Int) ∧
          (rowsScatter N M C wf).start j idx 0 + ((rowsScatter N M C wf).window j 0 : Int) < ((⟨2, ![N, C]⟩ : Shape).size 0 : Int)
        rw [rowsScatter_start0, rowsScatter_window0, e0]
        refine ⟨by omega, ?_⟩
        show ((i 0).val : Int) + ((0 : Nat) : Int) < (N : Int)
        omega
      | ⟨1, _⟩ =>
        show 0 ≤ (rowsScatter N M C wf).start j idx 1 + ((rowsScatter N M C wf).window j 1 : Int) ∧
          (rowsScatter N M C wf).start j idx 1 + ((rowsScatter N M C wf).window j 1 : Int) < ((⟨2, ![N, C]⟩ : Shape).size 1 : Int)
        rw [rowsScatter_start1, rowsScatter_window1]
        refine ⟨by omega, ?_⟩
        show (0 : Int) + ((j 1).val : Int) < (C : Int)
        omega

/-- `x.at[idx].add(u)` of a vector `x : [N]`, `idx : [M]` carried as `[M, 1]`, `u : [M]`. -/
abbrev flatScatter (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

theorem flatScatter_start0 (wf : ScatterDims.WF ⟨1, ![N]⟩ ⟨2, ![M, 1]⟩ ⟨1, ![M]⟩ [] [0] [0] 1)
    (j : (⟨1, ![M]⟩ : Shape).Idx) (idx : IVec ⟨2, ![M, 1]⟩ w) :
    (flatScatter N M wf).start j idx 0 = (idx (ix2 (j 0) (0 : Fin 1))).toInt := by
  unfold ScatterDims.start
  rw [dif_pos (show (0 : Fin 1) ∈ (flatScatter N M wf).scatterDimsToOperandDims from List.mem_singleton.mpr rfl)]
  have hsi : (flatScatter N M wf).siIdx j ⟨List.idxOf (0 : Fin 1) (flatScatter N M wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

theorem flatScatter_window0 (wf : ScatterDims.WF ⟨1, ![N]⟩ ⟨2, ![M, 1]⟩ ⟨1, ![M]⟩ [] [0] [0] 1)
    (j : (⟨1, ![M]⟩ : Shape).Idx) : (flatScatter N M wf).window j 0 = 0 := by
  unfold ScatterDims.window
  have h : (0 : Fin 1) ∉ (flatScatter N M wf).sKept := by
    show (0 : Fin 1) ∉ ([] : List (Fin 1)); exact List.not_mem_nil
  rw [dif_neg h]

/-- WHERE A VECTOR UPDATE LANDS: element `e` lands on `n` exactly when its index, read signed, is `n`. -/
theorem flatScatter_resultIdx?_eq_some_iff (wf : ScatterDims.WF ⟨1, ![N]⟩ ⟨2, ![M, 1]⟩ ⟨1, ![M]⟩ [] [0] [0] 1)
    (j : (⟨1, ![M]⟩ : Shape).Idx) (idx : IVec ⟨2, ![M, 1]⟩ w) (i : (⟨1, ![N]⟩ : Shape).Idx) :
    (flatScatter N M wf).resultIdx? j idx = some i ↔ (idx (ix2 (j 0) (0 : Fin 1))).toInt = ((i 0).val : Int) := by
  have hi0 : (i 0).val < N := (i 0).isLt
  unfold ScatterDims.resultIdx?
  split
  · rename_i h
    rw [Option.some.injEq]
    constructor
    · intro e
      have e0 := congrArg (fun f => (f 0).val) e
      simp only [flatScatter_start0, flatScatter_window0] at e0
      have h0 := h 0
      simp only [flatScatter_start0, flatScatter_window0] at h0
      omega
    · intro e0
      funext a
      obtain rfl : a = 0 := Subsingleton.elim _ _
      refine Fin.ext ?_
      show ((flatScatter N M wf).start j idx 0 + ((flatScatter N M wf).window j 0 : Int)).toNat = (i 0).val
      rw [flatScatter_start0, flatScatter_window0, e0]; omega
  · rename_i h
    constructor
    · intro e; exact absurd e (by simp)
    · intro e0
      exfalso; apply h
      intro a
      obtain rfl : a = 0 := Subsingleton.elim _ _
      show 0 ≤ (flatScatter N M wf).start j idx 0 + ((flatScatter N M wf).window j 0 : Int) ∧
        (flatScatter N M wf).start j idx 0 + ((flatScatter N M wf).window j 0 : Int) < ((⟨1, ![N]⟩ : Shape).size 0 : Int)
      rw [flatScatter_start0, flatScatter_window0, e0]
      refine ⟨by omega, ?_⟩
      show ((i 0).val : Int) + ((0 : Nat) : Int) < (N : Int)
      omega

end Scatter

end Cert.ScatterGather

end
-- ==== Proof.LibGraphMean.lean ====
/-
  The mean of gathered rows commutes with a linear map, on the extended reals.

  A graph layer gathers rows of a node array `X` along the edges' sources, adds the gathered rows into the rows
  their edges point to, and divides each row by a per-row divisor. Row `r` of the result is
  `(Σ_{e lands on r} X[src e, ·]) / d r`. When `X` and a weight matrix `B` hold real numbers and `d r` is a
  non-zero real, projecting afterwards,  `Σ_k ((Σ_e X[src e, k]) / d r) · B[q, k]`,  is the same number as
  projecting first,  `(Σ_e Σ_k X[src e, k] · B[q, k]) / d r`:  both are finite sums of products of reals, and the
  law is the exchange of two finite sums with the factor `1 / d r` and `B[q, k]` moved across them.
  The divisor of the layer is the in-degree clamped below by one, `max (#{e lands on r}) 1`: a real, at least one.
-/
import Idealize.ShloMosaic.PureOps.Ideal
import Idealize.ShloMosaic.PureOps.Ideal.Laws
import Idealize.ShloMosaic.Lib.ValueIdx
import proofs.«148862_j78297253806422_2_alg».proof.Proof.LibScatterGather

noncomputable section

namespace Cert.GraphMean

open Idealize.ShloMosaic Idealize.ShloMosaic.ValueIdx Cert.ScatterGather

/-- The coercion of the reals into the extended reals goes through a finite sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

variable {N M C w : Nat}

/-- The update rows that land on operand row `r`: those whose index, read signed, is `r`. -/
def landing (idx : IVec ⟨2, ![M, 1]⟩ w) (r : Fin N) : Finset (Fin M) :=
  Finset.univ.filter fun e => (idx (ix2 e (0 : Fin 1))).toInt = (r.val : Int)

/-- An accumulating row scatter into zeros, read at `(r, k)`: the sum of column `k` of the update rows that land
    on row `r`. -/
theorem scatter_rows_apply (wf : ScatterDims.WF ⟨2, ![N, C]⟩ ⟨2, ![M, 1]⟩ ⟨2, ![M, C]⟩ [1] [0] [0] 1)
    (idx : IVec ⟨2, ![M, 1]⟩ w) (u : (⟨2, ![M, C]⟩ : Shape).Idx → EReal) (r : Fin N) (k : Fin C) :
    Ideal.hostScatterAdd (rowsScatter N M C wf) (fun _ => 0) idx u (ix2 r k) = ∑ e ∈ landing idx r, u (ix2 e k) := by
  unfold Ideal.hostScatterAdd
  rw [zero_add]
  have key : ∀ j : (⟨2, ![M, C]⟩ : Shape).Idx, (rowsScatter N M C wf).resultIdx? j idx = some (ix2 r k) →
      (idx (ix2 (j 0) (0 : Fin 1))).toInt = (r.val : Int) ∧ ix2 (j 0) k = j := by
    intro j hj
    have h := (rowsScatter_resultIdx?_eq_some_iff wf j idx (ix2 r k)).mp hj
    refine ⟨h.1, ?_⟩
    funext a
    match a with
    | ⟨0, _⟩ => rfl
    | ⟨1, _⟩ => exact (Fin.ext h.2).symm
  refine Finset.sum_nbij' (fun j => j 0) (fun e => ix2 e k) ?_ ?_ ?_ ?_ ?_
  · intro j hj
    exact Finset.mem_filter.mpr ⟨Finset.mem_univ _, (key j (Finset.mem_filter.mp hj).2).1⟩
  · intro e he
    exact Finset.mem_filter.mpr ⟨Finset.mem_univ _,
      (rowsScatter_resultIdx?_eq_some_iff wf (ix2 e k) idx (ix2 r k)).mpr ⟨(Finset.mem_filter.mp he).2, rfl⟩⟩
  · intro j hj
    exact (key j (Finset.mem_filter.mp hj).2).2
  · intro e _
    rfl
  · intro j hj
    exact congrArg u (key j (Finset.mem_filter.mp hj).2).2.symm

/-- An accumulating scatter of ones into a vector of zeros, read at `r`: the number of updates that land on `r`. -/
theorem scatter_count_apply (wf : ScatterDims.WF ⟨1, ![N]⟩ ⟨2, ![M, 1]⟩ ⟨1, ![M]⟩ [] [0] [0] 1)
    (idx : IVec ⟨2, ![M, 1]⟩ w) (r : Fin N) :
    Ideal.hostScatterAdd (flatScatter N M wf) (fun _ => 0) idx (fun _ => 1) (ix1 r)
      = (((landing idx r).card : ℝ) : EReal) := by
  unfold Ideal.hostScatterAdd
  rw [zero_add]
  have e : ∑ j ∈ Finset.univ.filter (fun j : (⟨1, ![M]⟩ : Shape).Idx => (flatScatter N M wf).resultIdx? j idx = some (ix1 r)), (1 : EReal)
      = ∑ _e ∈ landing idx r, (1 : EReal) := by
    refine Finset.sum_nbij' (fun j => j 0) (fun e => ix1 e) ?_ ?_ ?_ ?_ ?_
    · intro j hj
      exact Finset.mem_filter.mpr ⟨Finset.mem_univ _,
        (flatScatter_resultIdx?_eq_some_iff wf j idx (ix1 r)).mp (Finset.mem_filter.mp hj).2⟩
    · intro e he
      exact Finset.mem_filter.mpr ⟨Finset.mem_univ _,
        (flatScatter_resultIdx?_eq_some_iff wf (ix1 e) idx (ix1 r)).mpr (Finset.mem_filter.mp he).2⟩
    · intro j _
      exact (eq_ix1 j).symm
    · intro e _
      rfl
    · intro j _
      rfl
  rw [e, Finset.sum_const, EReal.nsmul_eq_mul, mul_one]
  rfl

/-- The same count, for the host's accumulating scatter of a vector of ones into a vector of zeros, whatever the
    names its record, its operand and its updates go by. -/
theorem host_count_apply (d : ScatterDims ⟨1, ![N]⟩ ⟨2, ![M, 1]⟩ ⟨1, ![M]⟩)
    (wf : ScatterDims.WF ⟨1, ![N]⟩ ⟨2, ![M, 1]⟩ ⟨1, ![M]⟩ [] [0] [0] 1) (hd : d = flatScatter N M wf)
    (Z : FVec Ideal ⟨1, ![N]⟩ .f32) (hZ : Z = fun _ => 0) (idx : IVec ⟨2, ![M, 1]⟩ w)
    (U : FVec Ideal ⟨1, ![M]⟩ .f32) (hU : U = fun _ => 1) (r : Fin N) :
    Host.scatterAdd (F := Ideal) d Z idx U (ix1 r) = (((landing idx r).card : ℝ) : EReal) := by
  subst hd hZ hU
  exact scatter_count_apply wf idx r

/-- The in-degree of row `r` clamped below by one: the layer's divisor. -/
def degree (idx : IVec ⟨2, ![M, 1]⟩ w) (r : Fin N) : ℝ := max ((landing idx r).card : ℝ) 1

theorem degree_ne_zero (idx : IVec ⟨2, ![M, 1]⟩ w) (r : Fin N) : degree idx r ≠ 0 :=
  (lt_of_lt_of_le one_pos (le_max_right _ _)).ne'

/-- The maximum of a count and one, on the extended reals, is that real. -/
theorem max_count_one (idx : IVec ⟨2, ![M, 1]⟩ w) (r : Fin N) :
    max (((landing idx r).card : ℝ) : EReal) 1 = (degree idx r : EReal) := by
  unfold degree
  rw [← EReal.coe_one]
  exact (EReal.coe_strictMono.monotone.map_max).symm

/-- The exchange of sums over the reals: scaling and projecting the sum of rows is summing the projected rows and
    scaling. -/
theorem real_law {E K : Type} [Fintype K] (s : Finset E) (a : E → K → ℝ) (b : K → ℝ) (c : ℝ) :
    ∑ k : K, ((∑ e ∈ s, a e k) * c) * b k = (∑ e ∈ s, ∑ k : K, a e k * b k) * c := by
  simp only [Finset.sum_mul]
  rw [Finset.sum_comm]
  exact Finset.sum_congr rfl fun e _ => Finset.sum_congr rfl fun k _ => by ring

/-- THE LAW. `X = ↑a` and `B = ↑b` real, the divisor of row `r` the non-zero real `d r` in every column, the
    scatter's operand zero: the mean of the gathered rows of `X`, projected by `B`, is the mean of the gathered rows
    of the projected `X`. -/
theorem mean_project (hN : 0 < N)
    (wfg : GatherDims.WF ⟨2, ![N, C]⟩ ⟨2, ![M, 1]⟩ ⟨2, ![M, C]⟩ [1] [0] [] [0] [] 1 ![1, C])
    (wfs : ScatterDims.WF ⟨2, ![N, C]⟩ ⟨2, ![M, 1]⟩ ⟨2, ![M, C]⟩ [1] [0] [0] 1)
    (Z : (⟨2, ![N, C]⟩ : Shape).Idx → EReal) (hZ : Z = fun _ => 0)
    (I1 I2 : IVec ⟨2, ![M, 1]⟩ w)
    (Dn : (⟨2, ![N, C]⟩ : Shape).Idx → EReal) (d : Fin N → ℝ) (hd : ∀ r, d r ≠ 0)
    (hDn : ∀ r k, Dn (ix2 r k) = (d r : EReal))
    (a : (⟨2, ![N, C]⟩ : Shape).Idx → ℝ) (b : (⟨2, ![C, C]⟩ : Shape).Idx → ℝ) (r : Fin N) (q : Fin C) :
    ∑ k : Fin C, Ideal.div (Ideal.hostScatterAdd (rowsScatter N M C wfs) Z I2
        (Host.gather (rowsDims N M C wfg) (fun i => (a i : EReal)) I1) (ix2 r k)) (Dn (ix2 r k)) * (b (ix2 q k) : EReal)
      = Ideal.div (Ideal.hostScatterAdd (rowsScatter N M C wfs) Z I2
        (Host.gather (rowsDims N M C wfg) (fun i => ∑ k : Fin C, (a (ix2 (i 0) k) : EReal) * (b (ix2 (i 1) k) : EReal)) I1)
          (ix2 r q)) (Dn (ix2 r q)) := by
  subst hZ
  simp only [scatter_rows_apply, hDn, Ideal.div_coe (hd r), gather_rows_apply hN wfg]
  simp only [← EReal.coe_mul, ← coe_sum]
  exact congrArg _ (real_law (landing I2 r) (fun e k => a (ix2 (clampRow N hN I1 e) k)) (fun k => b (ix2 q k)) (1 / d r))

end Cert.GraphMean

end
-- ==== Proof.LibGcnLayer.lean ====
/-
  One graph-convolution layer with symmetric normalisation, in the two arrangements the two programs use, and the
  two-layer network they both compute.

  Nodes are r < N, edges e < M (the given edges followed by one self-loop per node). Edge e reads node `s e` (its
  source index, read signed and clamped into the node range) and is added into node `d e` (its target index, read
  signed; an edge whose target is not a node is dropped). With  c r = 1/√(deg r)  (0 where the degree is not positive)
  the layer sends a node array xw to
        out[r, k] = c r · Σ_{e lands on r} xw[s e, k] · c (s e).
  * The kernel's program scales the node array by c BEFORE the gather, adds the gathered rows, and scales the sums
    by c AFTER: literally the formula above.
  * The reference scales every gathered row by the edge weight  c (s e) · c (d' e),  d' e the target index read
    signed with a negative index wrapped, clamped — and adds. For an edge that lands on r the target IS r, so the
    weight is c (s e) · c r, and the factor c r, a non-negative real, comes out of the sum: on the extended reals
    a factor 0 ≤ c < ⊤ distributes over a finite sum whatever the summands are.
  No finiteness of the node array is needed.
  Stated for any numbers of nodes N, edges M and columns C and any index width (the network `gcn` with 64 → 64 → 32
  features, `clampRow_of_wrapped` for 100000 nodes and 32-bit indices); the records of the gathers and scatters enter as
  parameters with an equation to the row forms of the scatter / gather lemma file this module imports.
-/
import Idealize.ShloMosaic.PureOps.Ideal
import Idealize.ShloMosaic.PureOps.Ideal.Laws
import Idealize.ShloMosaic.Lib.ValueIdx
import proofs.«148862_j78297253806422_2_alg».proof.Proof.LibScatterGather
import proofs.«148862_j78297253806422_2_alg».proof.Proof.LibGraphMean

noncomputable section

namespace Cert.Gcn

open Idealize.ShloMosaic Idealize.ShloMosaic.ValueIdx Cert.ScatterGather Cert.GraphMean

/-! ## The normalising factor -/

/-- `1/√d` where `d > 0`, else `0`: the factor of a node of degree `d`, as both programs select it. -/
def invSqrtDeg (d : EReal) : EReal := Scalar.select (Ideal.cmp .ogt d 0) (Ideal.rsqrt d) 0

/-- The factor is a non-negative real whatever the degree is: the inverse root of a positive real is a positive
    real, that of `⊤` is `0`, and where the degree is not positive the factor is `0`. -/
theorem invSqrtDeg_nonneg_ne_top (d : EReal) : 0 ≤ invSqrtDeg d ∧ invSqrtDeg d ≠ ⊤ := by
  unfold invSqrtDeg Ideal.cmp
  by_cases h : (0 : EReal) < d
  · rw [show (BitVec.ofBool (decide ((0 : EReal) < d))) = 1#1 by simp [h], select_one]
    induction d using EReal.rec with
    | bot => exact absurd h (by simp)
    | top => rw [Ideal.rsqrt_top]; exact ⟨le_refl _, EReal.zero_ne_top⟩
    | coe r =>
      have hr : (0 : ℝ) < r := by exact_mod_cast h
      rw [Ideal.rsqrt_coe, if_neg (not_lt.mpr hr.le), if_neg hr.ne']
      exact ⟨by exact_mod_cast inv_nonneg.mpr (Real.sqrt_nonneg _), EReal.coe_ne_top _⟩
  · rw [show (BitVec.ofBool (decide ((0 : EReal) < d))) = 0#1 by simp [h], select_zero]
    exact ⟨le_refl _, EReal.zero_ne_top⟩

variable {N M C w : Nat}

/-! ## The two gathers at explicit coordinates -/

/-- The row gather at edge `e`, column `k`: the operand's row `s e`, column `k`. -/
theorem gather_rows_at {α : Type} (hN : 0 < N)
    (wfg : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (k : Fin C) :
    Host.gather (rowsDims N M C wfg) x idx (ix2 e k) = x (ix2 (clampRow N hN idx e) k) :=
  gather_rows_apply hN wfg x idx (ix2 e k)

/-- The vector gather at edge `e`: the operand at `s e`. -/
theorem gather_flat_at {α : Type} (hN : 0 < N)
    (wfv : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (flatDims N M wfv) x idx (ix1 e) = x (ix1 (clampRow N hN idx e)) :=
  gather_flat_apply hN wfv x idx (ix1 e)

/-! ## The layer -/

/-- One normalised layer at node `r`, column `k`: `c r · Σ_{e lands on r} xw[s e, k] · c (s e)`. -/
def layer (hN : 0 < N) (c : Fin N → EReal) (S D : IVec ⟨2, ![M, 1]⟩ w) (xw : Fin N → Fin C → EReal)
    (r : Fin N) (k : Fin C) : EReal :=
  c r * ∑ e ∈ landing D r, xw (clampRow N hN S e) k * c (clampRow N hN S e)

/-- THE KERNEL'S ARRANGEMENT. The node array scaled by the factor (carried as the array `CB1`, constant along
    rows), rounded to the narrow format (the identity on extended reals), gathered along the sources, widened,
    added into zeros along the targets, scaled again (`CB2`): the layer. -/
theorem layer_of_prescaled (hN : 0 < N)
    (gd : GatherDims ⟨2, ![N, C]⟩ ⟨2, ![M, 1]⟩ ⟨2, ![M, C]⟩)
    (wfg : GatherDims.WF ⟨2, ![N, C]⟩ ⟨2, ![M, 1]⟩ ⟨2, ![M, C]⟩ [1] [0] [] [0] [] 1 ![1, C]) (hgd : gd = rowsDims N M C wfg)
    (sd : ScatterDims ⟨2, ![N, C]⟩ ⟨2, ![M, 1]⟩ ⟨2, ![M, C]⟩)
    (wfs : ScatterDims.WF ⟨2, ![N, C]⟩ ⟨2, ![M, 1]⟩ ⟨2, ![M, C]⟩ [1] [0] [0] 1) (hsd : sd = rowsScatter N M C wfs)
    (Z : FVec Ideal ⟨2, ![N, C]⟩ .f32) (hZ : Z = fun _ => 0)
    (XW CB1 CB2 : FVec Ideal ⟨2, ![N, C]⟩ .f32) (c : Fin N → EReal)
    (hCB1 : ∀ r k, CB1 (ix2 r k) = c r) (hCB2 : ∀ r k, CB2 (ix2 r k) = c r)
    (S D : IVec ⟨2, ![M, 1]⟩ w) (hb : FTy.bits .bf16 < FTy.bits .f32) (r : Fin N) (k : Fin C) :
    mulf CB2 (Host.scatterAdd (F := Ideal) sd Z D
        (extf .f32 (Host.gather gd (truncf .bf16 (mulf XW CB1) hb) S) hb)) (ix2 r k)
      = layer hN c S D (fun r k => XW (ix2 r k)) r k := by
  subst hgd hsd hZ
  rw [mulf_apply, hCB2]
  show c r * Ideal.hostScatterAdd (rowsScatter N M C wfs) (fun _ => 0) D _ (ix2 r k) = _
  rw [scatter_rows_apply]
  unfold layer
  refine congrArg _ (Finset.sum_congr rfl fun e _ => ?_)
  rw [extf_apply, gather_rows_at hN wfg, truncf_apply, mulf_apply, hCB1]

/-- THE REFERENCE'S ARRANGEMENT. The node array gathered along the sources, every gathered row scaled by its
    edge's weight `c (s e) · c (d' e)` (carried as the array `NB`, constant along rows; the two factors gathered
    from the vector `cv`), added into zeros along the targets: the layer, when an edge that lands on node `r` has
    `d' e = r` and the factors are non-negative reals. -/
theorem layer_of_edge_weights (hN : 0 < N)
    (gd : GatherDims ⟨2, ![N, C]⟩ ⟨2, ![M, 1]⟩ ⟨2, ![M, C]⟩)
    (wfg : GatherDims.WF ⟨2, ![N, C]⟩ ⟨2, ![M, 1]⟩ ⟨2, ![M, C]⟩ [1] [0] [] [0] [] 1 ![1, C]) (hgd : gd = rowsDims N M C wfg)
    (sd : ScatterDims ⟨2, ![N, C]⟩ ⟨2, ![M, 1]⟩ ⟨2, ![M, C]⟩)
    (wfs : ScatterDims.WF ⟨2, ![N, C]⟩ ⟨2, ![M, 1]⟩ ⟨2, ![M, C]⟩ [1] [0] [0] 1) (hsd : sd = rowsScatter N M C wfs)
    (gv : GatherDims ⟨1, ![N]⟩ ⟨2, ![M, 1]⟩ ⟨1, ![M]⟩)
    (wfv : GatherDims.WF ⟨1, ![N]⟩ ⟨2, ![M, 1]⟩ ⟨1, ![M]⟩ [] [0] [] [0] [] 1 ![1]) (hgv : gv = flatDims N M wfv)
    (Z : FVec Ideal ⟨2, ![N, C]⟩ .f32) (hZ : Z = fun _ => 0)
    (XW : FVec Ideal ⟨2, ![N, C]⟩ .f32) (cv : FVec Ideal ⟨1, ![N]⟩ .f32) (c : Fin N → EReal)
    (hcv : ∀ r, cv (ix1 r) = c r) (hc : ∀ r, 0 ≤ c r ∧ c r ≠ ⊤)
    (S D D' : IVec ⟨2, ![M, 1]⟩ w)
    (hD' : ∀ (e : Fin M) (r : Fin N), (D (ix2 e (0 : Fin 1))).toInt = (r.val : Int) → clampRow N hN D' e = r)
    (NB : FVec Ideal ⟨2, ![M, C]⟩ .f32)
    (hNB : ∀ e k, NB (ix2 e k) = mulf (Host.gather gv cv S) (Host.gather gv cv D') (ix1 e))
    (r : Fin N) (k : Fin C) :
    Host.scatterAdd (F := Ideal) sd Z D (mulf (Host.gather gd XW S) NB) (ix2 r k)
      = layer hN c S D (fun r k => XW (ix2 r k)) r k := by
  subst hgd hsd hgv hZ
  show Ideal.hostScatterAdd (rowsScatter N M C wfs) (fun _ => 0) D _ (ix2 r k) = _
  rw [scatter_rows_apply]
  unfold layer
  rw [mul_comm, sum_mul_of_nonneg_ne_top _ _ (hc r).1 (hc r).2]
  refine Finset.sum_congr rfl fun e he => ?_
  have hland : (D (ix2 e (0 : Fin 1))).toInt = (r.val : Int) := (Finset.mem_filter.mp he).2
  rw [mulf_apply, gather_rows_at hN wfg, hNB, mulf_apply, gather_flat_at hN wfv, gather_flat_at hN wfv,
    hcv, hcv, hD' e r hland, mul_assoc]

/-! ## The network -/

/-- The two-layer network at node `r`, class `q`: the layer of `x0 · x2`, plus the bias `x3`, clipped below at zero,
    projected by `x4`, the layer again, plus the bias `x5`. -/
def gcn (hN : 0 < N) (c : Fin N → EReal) (S D : IVec ⟨2, ![M, 1]⟩ w)
    (x0 : (⟨2, ![N, 64]⟩ : Shape).Idx → EReal) (x2 : (⟨2, ![64, 64]⟩ : Shape).Idx → EReal)
    (x3 : (⟨1, ![64]⟩ : Shape).Idx → EReal) (x4 : (⟨2, ![64, 32]⟩ : Shape).Idx → EReal)
    (x5 : (⟨1, ![32]⟩ : Shape).Idx → EReal) (r : Fin N) (q : Fin 32) : EReal :=
  layer hN c S D (fun r q => ∑ k : Fin 64,
      max (layer hN c S D (fun r k => ∑ j : Fin 64, x0 (ix2 r j) * x2 (ix2 j k)) r k + x3 (ix1 k)) 0 * x4 (ix2 k q)) r q
    + x5 (ix1 q)

/-! ## Two small facts both programs' readings use -/

/-- The zero word broadcast to any shape is the zero array. -/
theorem bcast_zero_f32 {t : Shape} (h : (⟨0, ![]⟩ : Shape).BroadcastsInDim t (![] : Fin 0 → Fin t.rank)) :
    broadcastInDim t ![] h (constant (F := Ideal) ⟨0, ![]⟩ .f32 0x00000000#32) = fun _ => 0 := by
  funext i
  unfold broadcastInDim
  exact Ideal.ofBits_zero_f32

/-- A target index that names node `r` of 100000 is left alone by the wrap of negative indices
    (`b < 0 ? b + 100000 : b`) and by the clamp into the node range: the reference's second factor of an edge that
    lands on `r` is read at `r`. -/
theorem clampRow_of_wrapped (D D' : IVec ⟨2, ![M, 1]⟩ 32) (e : Fin M) (r : Fin 100000)
    (hw : D' (ix2 e (0 : Fin 1)) = Scalar.select (IntOp.cmpi .slt (D (ix2 e (0 : Fin 1))) 0#32)
      (IntOp.addi (D (ix2 e (0 : Fin 1))) 100000#32) (D (ix2 e (0 : Fin 1))))
    (hr : (D (ix2 e (0 : Fin 1))).toInt = (r.val : Int)) :
    clampRow 100000 (by decide) D' e = r := by
  have hlt : r.val < 100000 := r.isLt
  have hns : (D (ix2 e (0 : Fin 1))).slt 0#32 = false := by
    rw [BitVec.slt, hr]; simp
  have hsel : D' (ix2 e (0 : Fin 1)) = D (ix2 e (0 : Fin 1)) := by
    rw [hw]; unfold IntOp.cmpi; rw [hns]; exact select_zero _ _
  refine Fin.ext ?_
  show min (D' (ix2 e (0 : Fin 1))).toInt.toNat (100000 - 1) = r.val
  rw [hsel, hr]
  omega

end Cert.Gcn

end
-- ==== Proof.KernelPoint.lean ====
/-
  The kernel program's host terms, read entry by entry.

  The factor of node r is  c r = 1/√(degree r)  (0 where the degree is not positive), a non-negative real; as a
  column, and repeated along the columns of a node array, it is constant along each row. An aggregation scales the
  rows of a node array by c, gathers them along the edges' sources, adds the gathered rows into the nodes the
  edges' targets name, and scales the sums by c again: at node r, column k it is
        c r · Σ_{e lands on r} P[source e, k] · c (source e),
  the layer both programs compute. A bias repeated down the rows, or cast to one row, reads the bias at the column.
-/
import proofs.«148862_j78297253806422_2_alg».proof.Proof.KernelTerms
import proofs.«148862_j78297253806422_2_alg».proof.Proof.LibGcnLayer
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HostValue

open Cert.KernelIdeal Cert.KernelIdeal.Gen Cert.Gcn Cert.ScatterGather Cert.GraphMean Idealize.ShloMosaic Idealize.ShloMosaic.ValueIdx

variable (x1 : (⟨S2x1600000, .i32⟩ : BufTy).Contents (Elt Ideal))

/-! ## The normalising factor of a node -/

/-- The factor of node r: the inverse root of its degree, the number of edges (self-loop included) that point to it;
    zero where that number is not positive. -/
def factorOf (x1 : (⟨S2x1600000, .i32⟩ : BufTy).Contents (Elt Ideal)) : Fin 100000 → EReal :=
  fun r => invSqrtDeg (degree x1 (ix1 r))

/-- Every node's factor is a non-negative real. -/
theorem factor_bounds (r : Fin 100000) : 0 ≤ factorOf x1 r ∧ factorOf x1 r ≠ ⊤ :=
  invSqrtDeg_nonneg_ne_top _

/-- The host's inverse root of a vector, read at an index, is the extended reals' inverse root of the entry. -/
theorem hostRsqrt_at {s : Shape} {φ : FTy} (x : FVec Ideal s φ) (i : s.Idx) : Host.rsqrt x i = Ideal.rsqrt (x i) := rfl

/-- The factor vector read at node r is that factor: the degree is compared with the zero word, the inverse root is
    the extended reals', and the alternative is the zero word. -/
theorem factor_at (r : Fin 100000) : factor x1 (ix1 r) = factorOf x1 r := by
  unfold factor factorOf invSqrtDeg
  generalize degree x1 = dg
  rw [id_eq, bcast_zero_f32 bcast_S_S100000, select_apply, cmpf_apply, Ideal.cmpf_def, hostRsqrt_at]

/-- The factor as a column, read at row r. -/
theorem factorCol_at (r : Fin 100000) : factorCol x1 (ix2 r (0 : Fin 1)) = factorOf x1 r := by
  unfold factorCol
  exact (broadcastInDim_apply _ bcast_S100000_S100000x1_0 (factor x1) (ix2 r (0 : Fin 1)) (ix1 r) (fun a => match a with
    | ⟨0, _⟩ => by show r.val = if (100000 : Nat) = 1 then 0 else r.val; rw [if_neg (by decide)])).trans (factor_at x1 r)

/-- The factor column repeated along 64 columns: constant along each row. -/
theorem factorRows64_at (r : Fin 100000) (k : Fin 64) :
    (broadcastInDim S100000x64 ![0, 1] bcast_S100000x1_S100000x64_0_1 (factorCol x1) : FVec Ideal S100000x64 .f32) (ix2 r k) = factorOf x1 r :=
  (broadcastInDim_apply _ bcast_S100000x1_S100000x64_0_1 (factorCol x1) (ix2 r k) (ix2 r (0 : Fin 1)) (fun a => match a with
    | ⟨0, _⟩ => by show r.val = if (100000 : Nat) = 1 then 0 else r.val; rw [if_neg (by decide)]
    | ⟨1, _⟩ => by show 0 = if (1 : Nat) = 1 then 0 else k.val; rw [if_pos rfl])).trans (factorCol_at x1 r)

/-- The factor column repeated along 32 columns. -/
theorem factorRows32_at (r : Fin 100000) (q : Fin 32) :
    (broadcastInDim S100000x32 ![0, 1] bcast_S100000x1_S100000x32_0_1 (factorCol x1) : FVec Ideal S100000x32 .f32) (ix2 r q) = factorOf x1 r :=
  (broadcastInDim_apply _ bcast_S100000x1_S100000x32_0_1 (factorCol x1) (ix2 r q) (ix2 r (0 : Fin 1)) (fun a => match a with
    | ⟨0, _⟩ => by show r.val = if (100000 : Nat) = 1 then 0 else r.val; rw [if_neg (by decide)]
    | ⟨1, _⟩ => by show 0 = if (1 : Nat) = 1 then 0 else q.val; rw [if_pos rfl])).trans (factorCol_at x1 r)

/-! ## The two aggregations -/

/-- The first aggregation of a 64-column node array at node r, column k: rows scaled by the factor, gathered along
    the sources, added along the targets, scaled by the factor again — the layer. -/
theorem agg64_at (P : FVec Ideal S100000x64 .f32) (r : Fin 100000) (k : Fin 64) :
    aggregate64 x1 P (ix2 r k)
      = layer (N := 100000) (by decide) (factorOf x1) (col (wrapNeg (srcAug x1))) (col (dstAug x1)) (fun r k => P (ix2 r k)) r k := by
  unfold aggregate64
  exact layer_of_prescaled (N := 100000) (M := 1700000) (C := 64) (w := 32) (by decide)
    gather_S100000x64_S1700000x1_S1700000x64_1_0_n_n_0_1_164 gather_S100000x64_S1700000x1_S1700000x64_1_0_n_n_0_1_164.wf rfl
    scatter_S100000x64_S1700000x1_S1700000x64_1_0_0_1 scatter_S100000x64_S1700000x1_S1700000x64_1_0_0_1.wf rfl
    _ (bcast_zero_f32 bcast_S_S100000x64) P _ _
    (factorOf x1) (factorRows64_at x1) (factorRows64_at x1) _ _ bitsLt_bf16_f32 r k

/-- The second aggregation of a 32-column node array at node r, class q: the same layer. -/
theorem agg32_at (P : FVec Ideal S100000x32 .f32) (r : Fin 100000) (q : Fin 32) :
    aggregate32 x1 P (ix2 r q)
      = layer (N := 100000) (by decide) (factorOf x1) (col (wrapNeg (srcAug x1))) (col (dstAug x1)) (fun r q => P (ix2 r q)) r q := by
  unfold aggregate32
  exact layer_of_prescaled (N := 100000) (M := 1700000) (C := 32) (w := 32) (by decide)
    gather_S100000x32_S1700000x1_S1700000x32_1_0_n_n_0_1_132 gather_S100000x32_S1700000x1_S1700000x32_1_0_n_n_0_1_132.wf rfl
    scatter_S100000x32_S1700000x1_S1700000x32_1_0_0_1 scatter_S100000x32_S1700000x1_S1700000x32_1_0_0_1.wf rfl
    _ (bcast_zero_f32 bcast_S_S100000x32) P _ _
    (factorOf x1) (factorRows32_at x1) (factorRows32_at x1) _ _ bitsLt_bf16_f32 r q

/-! ## The two biases -/

/-- The second bias repeated down the rows, read at node r, class q: the bias at q. -/
theorem bias2_at (x5 : (⟨S32, .f32⟩ : BufTy).Contents (Elt Ideal)) (r : Fin 100000) (q : Fin 32) :
    broadcastInDim S100000x32 ![0, 1] bcast_S1x32_S100000x32_0_1 (broadcastInDim S1x32 ![1] bcast_S32_S1x32_1 x5) (ix2 r q) = x5 (ix1 q) :=
  (broadcastInDim_apply _ bcast_S1x32_S100000x32_0_1 (broadcastInDim S1x32 ![1] bcast_S32_S1x32_1 x5) (ix2 r q) (ix2 (0 : Fin 1) q) (fun a => match a with
    | ⟨0, _⟩ => by show 0 = if (1 : Nat) = 1 then 0 else r.val; rw [if_pos rfl]
    | ⟨1, _⟩ => by show q.val = if (32 : Nat) = 1 then 0 else q.val; rw [if_neg (by decide)])).trans
  (broadcastInDim_apply _ bcast_S32_S1x32_1 x5 (ix2 (0 : Fin 1) q) (ix1 q) (fun a => match a with
    | ⟨0, _⟩ => by show q.val = if (32 : Nat) = 1 then 0 else q.val; rw [if_neg (by decide)]))

/-- The first bias as one row, read at column k: the bias at k. -/
theorem bias1_at (x3 : (⟨S64, .f32⟩ : BufTy).Contents (Elt Ideal)) (k : Fin 64) :
    shapeCast S1x64 x3 shapeCasts_S64_S1x64 (ix2 (0 : Fin 1) k) = x3 (ix1 k) :=
  shapeCast_a_1a_apply x3 shapeCasts_S64_S1x64 (0 : Fin 1) k

end Cert.KernelIdeal.HostValue

end
-- ==== Proof.RegionProj.lean ====
/-
  The output array of the first region, entry by entry.

  The region visits ten grid points. Point t sees rows 10000·t … 10000·t + 9999 of the left array and the whole
  64 × 64 weight matrix, and writes the same rows of the output array. Each entry it writes is the inner product
  of one row of its row block with one column of the weights, so once every point has written its rows the output
  array is the matrix product of the two arrays as the region found them: entry (r, q) depends on row r of the
  left array and column q of the weights, and on nothing else.
-/
import proofs.«148862_j78297253806422_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-! ## The product of one row block with the weight matrix, entry by entry -/

/-- The contraction of the block product: rows of the left block against columns of the weights. -/
abbrev D0 := dot_S10000x64_S64x64_S10000x64_1_0_0_1_n_n

theorem D0_lhs0 (i : S10000x64.Idx) (q : D0.contr.Idx) : (D0.lhsIdx i q 0).val = (i 0).val := by
  unfold DotDims.lhsIdx
  rw [dif_neg (show ¬(0 : Fin S10000x64.rank) ∈ D0.lhsBatch by decide), dif_pos (show (0 : Fin S10000x64.rank) ∈ D0.lhsNonContracting by decide)]
  rfl
theorem D0_lhs1 (i : S10000x64.Idx) (q : D0.contr.Idx) : (D0.lhsIdx i q 1).val = (q ⟨0, by decide⟩).val :=
  D0.lhsIdx_val_of_single rfl i q
theorem D0_rhs0 (i : S10000x64.Idx) (q : D0.contr.Idx) : (D0.rhsIdx i q 0).val = (q ⟨0, by decide⟩).val :=
  D0.rhsIdx_val_of_single rfl i q
theorem D0_rhs1 (i : S10000x64.Idx) (q : D0.contr.Idx) : (D0.rhsIdx i q 1).val = (i 1).val := by
  unfold DotDims.rhsIdx
  rw [dif_neg (show ¬(1 : Fin S64x64.rank) ∈ D0.rhsBatch by decide), dif_pos (show (1 : Fin S64x64.rank) ∈ D0.rhsNonContracting by decide)]
  rfl

/-- Entry (p, q) of what the body stores is the inner product of row p of the loaded row block with column q of the
    loaded weights: the narrowing of both operands is the identity on extended reals and the accumulator starts at zero. -/
theorem pay0_apply (x : Vec Ideal S10000x64 .f32) (w : Vec Ideal S64x64 .f32) (p : Fin 10000) (q : Fin 64) :
    k0_pay1 (F := Ideal) x w (ix2 p q) = ∑ k : Fin 64, x (ix2 p k) * w (ix2 k q) := by
  unfold k0_pay1
  simp only [matmul]
  rw [Ideal.matmul_constant_zero_apply, ← Equiv.sum_comp (ValueIdx.contrEquiv1 D0 64 rfl rfl).symm]
  refine Finset.sum_congr rfl fun k _ => ?_
  have hk := ValueIdx.contrEquiv1_symm_val D0 64 rfl rfl k
  have el : D0.lhsIdx (ix2 p q) ((ValueIdx.contrEquiv1 D0 64 rfl rfl).symm k) = ix2 p k := funext fun a => Fin.ext (by
    match a with
    | ⟨0, _⟩ => exact D0_lhs0 _ _
    | ⟨1, _⟩ => exact (D0_lhs1 _ _).trans hk)
  have er : D0.rhsIdx (ix2 p q) ((ValueIdx.contrEquiv1 D0 64 rfl rfl).symm k) = ix2 k q := funext fun a => Fin.ext (by
    match a with
    | ⟨0, _⟩ => exact (D0_rhs0 _ _).trans hk
    | ⟨1, _⟩ => exact D0_rhs1 _ _)
  rw [el, er]
  rfl

/-- The same at any index of the block, its coordinates named as naturals below the block's extents. -/
theorem pay0_at (x : Vec Ideal S10000x64 .f32) (w : Vec Ideal S64x64 .f32) (j : S10000x64.Idx) :
    k0_pay1 (F := Ideal) x w j = ∑ k : Fin 64, x (ix2 (⟨(j 0).val, (j 0).isLt⟩ : Fin 10000) k) * w (ix2 k (⟨(j 1).val, (j 1).isLt⟩ : Fin 64)) := by
  obtain ⟨p, q, rfl⟩ : ∃ (p : Fin 10000) (q : Fin 64), j = ix2 p q := ⟨j 0, j 1, eq_ix2 j⟩
  exact pay0_apply x w p q

/-! ## The whole product, and the block of it each grid point writes -/

/-- The product of the whole left array with the weights: entry (r, q) is the inner product of row r with column q. -/
abbrev prodAll (a0 : S100000x64.Idx → Elt Ideal .f32) (a2 : S64x64.Idx → Elt Ideal .f32) : S100000x64.Idx → Elt Ideal .f32 :=
  fun i => ∑ k : Fin 64, a0 (ix2 (⟨(i 0).val, (i 0).isLt⟩ : Fin 100000) k) * a2 (ix2 k (⟨(i 1).val, (i 1).isLt⟩ : Fin 64))

theorem zeroOff : (![0, 0] : Fin 2 → Nat) = fun _ => 0 := funext fun a => by fin_cases a <;> rfl

/-- The index maps over the ten grid points: the left operand's row block moves with the output's, which is the
    point's own number; the weights are one block, never moved; no window moves along the columns. -/
theorem blockIdx0 : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = 0
    ∧ win0_2.index t (0 : Fin 2) ≤ 9 ∧ win0_2.index t (1 : Fin 2) = 0 :=
  (by decide +kernel : ∀ t : Fin grid0.N, _)

/-- Every one of the ten row blocks is some point's. -/
theorem blockOnto0 : ∀ b : Fin 10, ∃ t : Fin cfg0.N, win0_2.index t (0 : Fin 2) = b.val ∧ win0_2.index t (1 : Fin 2) = 0 :=
  (by decide +kernel : ∀ b : Fin 10, ∃ t : Fin grid0.N, win0_2.index t (0 : Fin 2) = b.val ∧ win0_2.index t (1 : Fin 2) = 0)

/-- What grid point t writes back is block t of the whole product: the rows of the left array under the point's row
    block against the whole weight matrix. -/
theorem flushed0_eq (c : Dev nD) (t : Fin cfg0.N) :
    (dat0 (F := Ideal) V c).flushed 2 t = ((cfg0.win 2).blk t).view.read (Elt Ideal) (prodAll (V c main_arg0) (V c main_arg2)) := by
  show (cfg0.win 2).cut (grid0.coords t) ((dat0 V c).after 2 t) = _
  rw [after0_2]
  unfold out0_2
  rw [View.canon_unit_zero zeroOff]
  simp only [View.ld_unit_zero (S := S10000x64) zeroOff, View.ld_unit_zero (S := S64x64) zeroOff]
  obtain ⟨e0, e1, e2, e3, e4, e5⟩ := blockIdx0 t
  funext j
  show k0_pay1 (F := Ideal) (iblk0 V c 0 t) (iblk0 V c 1 t) j = prodAll (V c main_arg0) (V c main_arg2) (((cfg0.win 2).blk t).view.emb j)
  refine (pay0_at _ _ j).trans ?_
  refine Finset.sum_congr rfl fun k _ => ?_
  have hj0 : (j 0).val < 10000 := (j 0).isLt
  have hj1 : (j 1).val < 64 := (j 1).isLt
  have h0 : iblk0 V c 0 t (ix2 (⟨(j 0).val, (j 0).isLt⟩ : Fin 10000) k)
      = V c main_arg0 (ix2 (⟨((((cfg0.win 2).blk t).view.emb j) 0).val, ((((cfg0.win 2).blk t).view.emb j) 0).isLt⟩ : Fin 100000) k) := by
    show V c main_arg0 (((cfg0.win 0).blk t).view.emb (ix2 (⟨(j 0).val, (j 0).isLt⟩ : Fin 10000) k)) = _
    refine congrArg (V c main_arg0) (funext fun a => Fin.ext ?_)
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 64 + 1 * k.val = k.val; omega
  have h1 : iblk0 V c 1 t (ix2 k (⟨(j 1).val, (j 1).isLt⟩ : Fin 64))
      = V c main_arg2 (ix2 k (⟨((((cfg0.win 2).blk t).view.emb j) 1).val, ((((cfg0.win 2).blk t).view.emb j) 1).isLt⟩ : Fin 64)) := by
    show V c main_arg2 (((cfg0.win 1).blk t).view.emb (ix2 k (⟨(j 1).val, (j 1).isLt⟩ : Fin 64))) = _
    refine congrArg (V c main_arg2) (funext fun a => Fin.ext ?_)
    match a with
    | ⟨0, _⟩ => show win0_1.index t (0 : Fin 2) * 64 + 1 * k.val = k.val; omega
    | ⟨1, _⟩ => show win0_1.index t (1 : Fin 2) * 64 + 1 * (j 1).val = win0_2.index t (1 : Fin 2) * 64 + 1 * (j 1).val; omega
  rw [h0, h1]

/-- An index of the output array lies in point t's block exactly when, on each axis, its coordinate is inside the
    block's range there. -/
theorem mem_blk0 (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v16).slice (win0_2.rect t)).set ↔ _
  rw [View.set_slice_whole, Rect.mem_set_unit]
  exact Iff.rfl

/-- Row r of the output lies in the block of the point numbered r / 10000, and every point writes its block back:
    the ten blocks cover the array. -/
theorem cover0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, q0, q1⟩ := blockOnto0 ⟨(i 0).val / 10000, by omega⟩
  have q0' : win0_2.index t (0 : Fin 2) = (i 0).val / 10000 := q0
  refine ⟨t, flush0_2 t, ?_⟩
  rw [mem_blk0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- After the ten points the output array is the whole product. -/
theorem proj_array (c : Dev nD) :
    (dat0 (F := Ideal) V c).arrAt 2 cfg0.N = prodAll (V c main_arg0) (V c main_arg2) :=
  (dat0 (F := Ideal) V c).arrAt_eq_of_cover 2 (prodAll (V c main_arg0) (V c main_arg2)) (fun t _ => flushed0_eq V c t) cover0

/-- Entry (r, q) of the output array after the region: the inner product of row r of the left array, as the region
    finds it, with column q of the weights. -/
theorem proj_at (c : Dev nD) (r : Fin 100000) (q : Fin 64) :
    (dat0 (F := Ideal) V c).arrAt 2 cfg0.N (ix2 r q)
      = (∑ k : Fin 64, @HMul.hMul EReal EReal EReal _ (V c main_arg0 (ix2 r k)) (V c main_arg2 (ix2 k q)) : EReal) :=
  congrFun (proj_array V c) (ix2 r q)

end Cert.KernelIdeal.RegionValue

end
-- ==== Proof.RegionHidden.lean ====
/-
  The output array of the second region, entry by entry.

  The region visits ten grid points. Point t sees rows 10000·t … 10000·t + 9999 of the left array, the whole bias
  row and the whole 64 × 32 weight matrix, and writes the same rows of the output array. Each entry it writes takes
  one row of its row block, adds the bias row to it, replaces every negative entry by zero, and takes the inner
  product with one column of the weights. Once every point has written its rows, entry (r, q) of the output array is
  that expression of row r of the left array, the bias row and column q of the weights, and depends on nothing else.
-/
import proofs.«148862_j78297253806422_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-! ## One row block through the bias, the rectifier and the second weight matrix, entry by entry -/

/-- The contraction of the block product: rows of the rectified block against columns of the weights. -/
abbrev D1 := dot_S10000x64_S64x32_S10000x32_1_0_0_1_n_n

theorem D1_lhs0 (i : S10000x32.Idx) (q : D1.contr.Idx) : (D1.lhsIdx i q 0).val = (i 0).val := by
  unfold DotDims.lhsIdx
  rw [dif_neg (show ¬(0 : Fin S10000x64.rank) ∈ D1.lhsBatch by decide), dif_pos (show (0 : Fin S10000x64.rank) ∈ D1.lhsNonContracting by decide)]
  rfl
theorem D1_lhs1 (i : S10000x32.Idx) (q : D1.contr.Idx) : (D1.lhsIdx i q 1).val = (q ⟨0, by decide⟩).val :=
  D1.lhsIdx_val_of_single rfl i q
theorem D1_rhs0 (i : S10000x32.Idx) (q : D1.contr.Idx) : (D1.rhsIdx i q 0).val = (q ⟨0, by decide⟩).val :=
  D1.rhsIdx_val_of_single rfl i q
theorem D1_rhs1 (i : S10000x32.Idx) (q : D1.contr.Idx) : (D1.rhsIdx i q 1).val = (i 1).val := by
  unfold DotDims.rhsIdx
  rw [dif_neg (show ¬(1 : Fin S64x32.rank) ∈ D1.rhsBatch by decide), dif_pos (show (1 : Fin S64x32.rank) ∈ D1.rhsNonContracting by decide)]
  rfl

/-- Entry (p, q) of what the body stores: row p of the loaded block plus the bias row, each entry cut below at zero,
    against column q of the loaded weights. The casts to the same shape and the narrowing are identities on extended
    reals, the bias row is repeated down the rows, and the accumulator starts at zero. -/
theorem pay1_apply (x : Vec Ideal S10000x64 .f32) (b : Vec Ideal S1x64 .f32) (w : Vec Ideal S64x32 .f32) (p : Fin 10000) (q : Fin 32) :
    k1_pay1 (F := Ideal) x b w (ix2 p q) = ∑ k : Fin 64, max (x (ix2 p k) + b (ix2 (0 : Fin 1) k)) 0 * w (ix2 k q) := by
  unfold k1_pay1
  simp only [matmul]
  rw [Ideal.matmul_constant_zero_apply, ← Equiv.sum_comp (ValueIdx.contrEquiv1 D1 64 rfl rfl).symm]
  refine Finset.sum_congr rfl fun k _ => ?_
  have hk := ValueIdx.contrEquiv1_symm_val D1 64 rfl rfl k
  have el : D1.lhsIdx (ix2 p q) ((ValueIdx.contrEquiv1 D1 64 rfl rfl).symm k) = ix2 p k := funext fun a => Fin.ext (by
    match a with
    | ⟨0, _⟩ => exact D1_lhs0 _ _
    | ⟨1, _⟩ => exact (D1_lhs1 _ _).trans hk)
  have er : D1.rhsIdx (ix2 p q) ((ValueIdx.contrEquiv1 D1 64 rfl rfl).symm k) = ix2 k q := funext fun a => Fin.ext (by
    match a with
    | ⟨0, _⟩ => exact (D1_rhs0 _ _).trans hk
    | ⟨1, _⟩ => exact D1_rhs1 _ _)
  rw [el, er, shapeCast_self, shapeCast_self]
  show max (x (ix2 p k) + broadcastTo S10000x64 b broadcasts_S1x64_S10000x64 (ix2 p k)) (Ideal.ofBits .f32 0x00000000#32) * w (ix2 k q) = _
  rw [broadcastTo_1b_ab_apply, Ideal.ofBits_zero_f32]

/-- The same at any index of the block, its coordinates named as naturals below the block's extents. -/
theorem pay1_at (x : Vec Ideal S10000x64 .f32) (b : Vec Ideal S1x64 .f32) (w : Vec Ideal S64x32 .f32) (j : S10000x32.Idx) :
    k1_pay1 (F := Ideal) x b w j = ∑ k : Fin 64, max (x (ix2 (⟨(j 0).val, (j 0).isLt⟩ : Fin 10000) k) + b (ix2 (0 : Fin 1) k)) 0 * w (ix2 k (⟨(j 1).val, (j 1).isLt⟩ : Fin 32)) := by
  obtain ⟨p, q, rfl⟩ : ∃ (p : Fin 10000) (q : Fin 32), j = ix2 p q := ⟨j 0, j 1, eq_ix2 j⟩
  exact pay1_apply x b w p q

/-! ## The whole layer, and the block of it each grid point writes -/

/-- The layer on whole arrays: entry (r, q) is row r of the left array plus the bias row, cut below at zero, against
    column q of the weights. -/
abbrev hiddenAll (a : S100000x64.Idx → Elt Ideal .f32) (b : S1x64.Idx → Elt Ideal .f32) (w : S64x32.Idx → Elt Ideal .f32) :
    S100000x32.Idx → Elt Ideal .f32 :=
  fun i => ∑ k : Fin 64, max (a (ix2 (⟨(i 0).val, (i 0).isLt⟩ : Fin 100000) k) + b (ix2 (0 : Fin 1) k)) 0 * w (ix2 k (⟨(i 1).val, (i 1).isLt⟩ : Fin 32))

theorem offZero1 : (![0, 0] : Fin 2 → Nat) = fun _ => 0 := funext fun a => by fin_cases a <;> rfl

/-- The index maps over the ten grid points: the left operand's row block moves with the output's; the bias row and
    the weights are one block each, never moved; no window moves along the columns. -/
theorem blockIdx1 : ∀ t : Fin cfg1.N,
    win1_0.index t (0 : Fin 2) = win1_3.index t (0 : Fin 2) ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) ≤ 9 ∧ win1_3.index t (1 : Fin 2) = 0 :=
  (by decide +kernel : ∀ t : Fin grid1.N, _)

/-- Every one of the ten row blocks is some point's. -/
theorem blockOnto1 : ∀ b : Fin 10, ∃ t : Fin cfg1.N, win1_3.index t (0 : Fin 2) = b.val ∧ win1_3.index t (1 : Fin 2) = 0 :=
  (by decide +kernel : ∀ b : Fin 10, ∃ t : Fin grid1.N, win1_3.index t (0 : Fin 2) = b.val ∧ win1_3.index t (1 : Fin 2) = 0)

/-- What grid point t writes back is block t of the whole layer: the rows of the left array under the point's row
    block, with the whole bias row and the whole weight matrix. -/
theorem flushed1_eq (c : Dev nD) (t : Fin cfg1.N) :
    (dat1 (F := Ideal) V c).flushed 3 t
      = ((cfg1.win 3).blk t).view.read (Elt Ideal) (hiddenAll (V c main_v32) (V c main_v33) (V c main_arg4)) := by
  show (cfg1.win 3).cut (grid1.coords t) ((dat1 V c).after 3 t) = _
  rw [after1_3]
  unfold out1_3
  rw [View.canon_unit_zero offZero1]
  simp only [View.ld_unit_zero (S := S10000x64) offZero1, View.ld_unit_zero (S := S1x64) offZero1, View.ld_unit_zero (S := S64x32) offZero1]
  obtain ⟨e0, e1, e2, e3, e4, e5, e6, e7⟩ := blockIdx1 t
  funext j
  show k1_pay1 (F := Ideal) (iblk1 V c 0 t) (iblk1 V c 1 t) (iblk1 V c 2 t) j
    = hiddenAll (V c main_v32) (V c main_v33) (V c main_arg4) (((cfg1.win 3).blk t).view.emb j)
  refine (pay1_at _ _ _ j).trans ?_
  refine Finset.sum_congr rfl fun k _ => ?_
  have hj0 : (j 0).val < 10000 := (j 0).isLt
  have hj1 : (j 1).val < 32 := (j 1).isLt
  have h0 : iblk1 V c 0 t (ix2 (⟨(j 0).val, (j 0).isLt⟩ : Fin 10000) k)
      = V c main_v32 (ix2 (⟨((((cfg1.win 3).blk t).view.emb j) 0).val, ((((cfg1.win 3).blk t).view.emb j) 0).isLt⟩ : Fin 100000) k) := by
    show V c main_v32 (((cfg1.win 0).blk t).view.emb (ix2 (⟨(j 0).val, (j 0).isLt⟩ : Fin 10000) k)) = _
    refine congrArg (V c main_v32) (funext fun a => Fin.ext ?_)
    match a with
    | ⟨0, _⟩ => show win1_0.index t (0 : Fin 2) * 10000 + 1 * (j 0).val = win1_3.index t (0 : Fin 2) * 10000 + 1 * (j 0).val; omega
    | ⟨1, _⟩ => show win1_0.index t (1 : Fin 2) * 64 + 1 * k.val = k.val; omega
  have h1 : iblk1 V c 1 t (ix2 (0 : Fin 1) k) = V c main_v33 (ix2 (0 : Fin 1) k) := by
    show V c main_v33 (((cfg1.win 1).blk t).view.emb (ix2 (0 : Fin 1) k)) = _
    refine congrArg (V c main_v33) (funext fun a => Fin.ext ?_)
    match a with
    | ⟨0, _⟩ => show win1_1.index t (0 : Fin 2) * 1 + 1 * 0 = 0; omega
    | ⟨1, _⟩ => show win1_1.index t (1 : Fin 2) * 64 + 1 * k.val = k.val; omega
  have h2 : iblk1 V c 2 t (ix2 k (⟨(j 1).val, (j 1).isLt⟩ : Fin 32))
      = V c main_arg4 (ix2 k (⟨((((cfg1.win 3).blk t).view.emb j) 1).val, ((((cfg1.win 3).blk t).view.emb j) 1).isLt⟩ : Fin 32)) := by
    show V c main_arg4 (((cfg1.win 2).blk t).view.emb (ix2 k (⟨(j 1).val, (j 1).isLt⟩ : Fin 32))) = _
    refine congrArg (V c main_arg4) (funext fun a => Fin.ext ?_)
    match a with
    | ⟨0, _⟩ => show win1_2.index t (0 : Fin 2) * 64 + 1 * k.val = k.val; omega
    | ⟨1, _⟩ => show win1_2.index t (1 : Fin 2) * 32 + 1 * (j 1).val = win1_3.index t (1 : Fin 2) * 32 + 1 * (j 1).val; omega
  rw [h0, h1, h2]

/-- An index of the output array lies in point t's block exactly when, on each axis, its coordinate is inside the
    block's range there. -/
theorem mem_blk1 (t : Fin cfg1.N) (i : S100000x32.Idx) :
    i ∈ ((cfg1.win 3).blk t).view.set ↔ ∀ a : Fin 2, win1_3.index t a * S10000x32.size a ≤ (i a).val ∧ (i a).val < win1_3.index t a * S10000x32.size a + S10000x32.size a := by
  show i ∈ ((View.whole main_v34).slice (win1_3.rect t)).set ↔ _
  rw [View.set_slice_whole, Rect.mem_set_unit]
  exact Iff.rfl

/-- Row r of the output lies in the block of the point numbered r / 10000, and every point writes its block back:
    the ten blocks cover the array. -/
theorem cover1 (i : S100000x32.Idx) :
    ∃ t : Fin cfg1.N, (cfg1.win 3).flush t = true ∧ i ∈ ((cfg1.win 3).blk t).view.set := by
  have hi0 : (i 0).val < 100000 := (i 0).isLt
  have hi1 : (i 1).val < 32 := (i 1).isLt
  obtain ⟨t, q0, q1⟩ := blockOnto1 ⟨(i 0).val / 10000, by omega⟩
  have q0' : win1_3.index t (0 : Fin 2) = (i 0).val / 10000 := q0
  refine ⟨t, flush1_3 t, ?_⟩
  rw [mem_blk1]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 32 ≤ (i 1).val ∧ (i 1).val < win1_3.index t (1 : Fin 2) * 32 + 32; omega

/-- After the ten points the output array is the whole layer. -/
theorem hidden_array (c : Dev nD) :
    (dat1 (F := Ideal) V c).arrAt 3 cfg1.N = hiddenAll (V c main_v32) (V c main_v33) (V c main_arg4) :=
  (dat1 (F := Ideal) V c).arrAt_eq_of_cover 3 (hiddenAll (V c main_v32) (V c main_v33) (V c main_arg4)) (fun t _ => flushed1_eq V c t) cover1

/-- Entry (r, q) of the output array after the region: row r of the left array, as the region finds it, plus the bias
    row, each entry cut below at zero, against column q of the weights. -/
theorem hidden_at (c : Dev nD) (r : Fin 100000) (q : Fin 32) :
    (dat1 (F := Ideal) V c).arrAt 3 cfg1.N (ix2 r q)
      = (∑ k : Fin 64, @HMul.hMul EReal EReal EReal _
          (@max EReal _ (@HAdd.hAdd EReal EReal EReal _ (V c main_v32 (ix2 r k)) (V c main_v33 (ix2 (0 : Fin 1) k))) 0)
          (V c main_arg4 (ix2 k q)) : EReal) :=
  congrFun (hidden_array V c) (ix2 r q)

end Cert.KernelIdeal.RegionValue

end
-- ==== Proof.KernelValue.lean ====
/-
  The kernel program's result, read at an index, is the two-layer network.

  The result buffer holds the second aggregation of the second region's array plus the second bias. The second
  region's array at (r, q) is  Σ_k max(a[r, k] + b1[k], 0) · W2[k, q]  of what the region finds, and it finds in `a` the
  first aggregation of the first region's array, which at (r, k) is  Σ_j x[r, j] · W1[j, k].  Each aggregation, read at
  an index, is the layer of `LibGcnLayer` in the kernel's arrangement (scale, gather, add, scale).
-/
import proofs.«148862_j78297253806422_2_alg».proof.Proof.KernelStages
import proofs.«148862_j78297253806422_2_alg».proof.Proof.KernelPoint
import proofs.«148862_j78297253806422_2_alg».proof.Proof.RegionProj
import proofs.«148862_j78297253806422_2_alg».proof.Proof.RegionHidden

set_option maxRecDepth 16384

noncomputable section

namespace Cert.KernelIdeal.HostValue

open Cert.KernelIdeal Cert.KernelIdeal.Gen Cert.KernelIdeal.RegionValue Cert.Gcn Cert.ScatterGather Cert.GraphMean
open Idealize.ShloMosaic Idealize.ShloMosaic.ValueIdx Idealize.ShloMosaic.TcCoe Idealize.SL.Sem

variable (m : (ℓ : Loc nD τ sig) → Buf (Elt Ideal) ℓ) (ρ : Dev nD → PrngReg)

/-- The first region's array at (r, k): row r of x against column k of W1. -/
theorem proj_value (c : Dev nD) (x0 : S100000x64.Idx → EReal) (x2 : S64x64.Idx → EReal)
    (h0 : m ((c.tc : Thread nD τ).loc main_arg0) = x0) (h2 : m ((c.tc : Thread nD τ).loc main_arg2) = x2)
    (r : Fin 100000) (k : Fin 64) :
    W4 (F := Ideal) m ρ c (Proc.devRef .tc main_v16) (ix2 r k) = ∑ j : Fin 64, x0 (ix2 r j) * x2 (ix2 j k) := by
  have e0 : V3 m ρ c main_arg0 = x0 := (entry_arg0 m ρ c).trans h0
  have e2 : V3 m ρ c main_arg2 = x2 := (entry_arg2 m ρ c).trans h2
  rw [exit0_proj]
  refine (proj_at (V3 m ρ) c r k).trans ?_
  rw [e0, e2]

/-- The second region's array at (r, q), from the first layer of the first projection. -/
theorem hidden_value (c : Dev nD) (x0 : S100000x64.Idx → EReal) (x1 : (⟨S2x1600000, .i32⟩ : BufTy).Contents (Elt Ideal))
    (x2 : S64x64.Idx → EReal) (x3 : S64.Idx → EReal) (x4 : S64x32.Idx → EReal)
    (h0 : m ((c.tc : Thread nD τ).loc main_arg0) = x0) (h1 : m ((c.tc : Thread nD τ).loc main_arg1) = x1)
    (h2 : m ((c.tc : Thread nD τ).loc main_arg2) = x2) (h3 : m ((c.tc : Thread nD τ).loc main_arg3) = x3)
    (h4 : m ((c.tc : Thread nD τ).loc main_arg4) = x4) (r : Fin 100000) (q : Fin 32) :
    W6 (F := Ideal) m ρ c (Proc.devRef .tc main_v34) (ix2 r q)
      = ∑ k : Fin 64, max (layer (N := 100000) (by decide) (factorOf x1) (col (wrapNeg (srcAug x1))) (col (dstAug x1))
          (fun r k => ∑ j : Fin 64, x0 (ix2 r j) * x2 (ix2 j k)) r k + x3 (ix1 k)) 0 * x4 (ix2 k q) := by
  rw [exit1_hidden]
  refine (hidden_at (V5 m ρ) c r q).trans ?_
  have ea : V5 m ρ c main_v32 = aggregate64 x1 (W4 m ρ c (Proc.devRef .tc main_v16)) := by
    rw [← h1]; exact entry1_agg m ρ c
  have eb : V5 m ρ c main_v33 = shapeCast S1x64 x3 shapeCasts_S64_S1x64 := by
    rw [← h3]; exact entry1_bias m ρ c
  have ew : V5 m ρ c main_arg4 = x4 := (entry1_arg4 m ρ c).trans h4
  rw [ea, eb, ew]
  simp only [agg64_at]
  have ep : (fun (r : Fin 100000) (k : Fin 64) => W4 (F := Ideal) m ρ c (Proc.devRef .tc main_v16) (ix2 r k))
      = fun r k => ∑ j : Fin 64, x0 (ix2 r j) * x2 (ix2 j k) :=
    funext fun r => funext fun k => proj_value m ρ c x0 x2 h0 h2 r k
  rw [ep]
  show @Eq EReal _ _
  refine Finset.sum_congr rfl fun k _ => ?_
  rw [show shapeCast S1x64 x3 shapeCasts_S64_S1x64 (ix2 (0 : Fin 1) k) = x3 (ix1 k) from bias1_at x3 k]

/-- THE KERNEL'S RESULT at node r, class q. -/
theorem result_at (c : Dev nD) (x0 : S100000x64.Idx → EReal) (x1 : (⟨S2x1600000, .i32⟩ : BufTy).Contents (Elt Ideal))
    (x2 : S64x64.Idx → EReal) (x3 : S64.Idx → EReal) (x4 : S64x32.Idx → EReal) (x5 : S32.Idx → EReal)
    (h0 : m ((c.tc : Thread nD τ).loc main_arg0) = x0) (h1 : m ((c.tc : Thread nD τ).loc main_arg1) = x1)
    (h2 : m ((c.tc : Thread nD τ).loc main_arg2) = x2) (h3 : m ((c.tc : Thread nD τ).loc main_arg3) = x3)
    (h4 : m ((c.tc : Thread nD τ).loc main_arg4) = x4) (h5 : m ((c.tc : Thread nD τ).loc main_arg5) = x5)
    (r : Fin 100000) (q : Fin 32) :
    W7 (F := Ideal) m ρ c (Proc.devRef .tc main_v53) (ix2 r q)
      = gcn (N := 100000) (by decide) (factorOf x1) (col (wrapNeg (srcAug x1))) (col (dstAug x1)) x0 x2 x3 x4 x5 r q := by
  rw [result_term, h1, h5, addf_apply, agg32_at, bias2_at]
  have eh : (fun (r : Fin 100000) (q : Fin 32) => W6 (F := Ideal) m ρ c (Proc.devRef .tc main_v34) (ix2 r q))
      = fun r q => ∑ k : Fin 64, max (layer (N := 100000) (by decide) (factorOf x1) (col (wrapNeg (srcAug x1))) (col (dstAug x1))
          (fun r k => ∑ j : Fin 64, x0 (ix2 r j) * x2 (ix2 j k)) r k + x3 (ix1 k)) 0 * x4 (ix2 k q) :=
    funext fun r => funext fun q => hidden_value m ρ c x0 x1 x2 x3 x4 h0 h1 h2 h3 h4 r q
  rw [eh]
  rfl

end Cert.KernelIdeal.HostValue

end
-- ==== Proof.RefValue.lean ====
/-
  The reference program's result, entry by entry, as the two-layer graph network.

  From the edge list the reference derives a source column and a target column (one self-loop per node appended),
  counts for every node the edges that point to it, and takes  c r = 1/√(that count)  (0 where the count is not
  positive). A layer gathers the rows of a node array along the sources, scales the row of edge e by
  c (source e) · c (target e), and adds the scaled rows into the nodes their targets name. An edge that is added
  into node r has target r, so its weight is c (source e) · c r, and the non-negative real c r comes out of the sum:
        out[r, k] = c r · Σ_{e lands on r} xw[source e, k] · c (source e).
  The first layer is applied to the product of the features with the first weights; its result plus a bias, cut
  below at zero, is multiplied by the second weights; the second layer is applied to that, and a second bias is
  added. The second layer recomputes the columns and the factors from the same edge list by the same operations,
  so they are the first layer's.
-/
import proofs.«148862_j78297253806422_2_alg».proof.Proof.RefRead
import proofs.«148862_j78297253806422_2_alg».proof.Proof.LibGcnLayer
import Idealize.ShloMosaic.Lib.Pipeline.Value
import Idealize.ShloMosaic.Lib.ValueIdx
import Idealize.ShloMosaic.PureOps.Ideal.Laws

set_option maxRecDepth 16384

noncomputable section

namespace Cert.ReferenceIdeal.RefValue

open Cert.ReferenceIdeal Cert.ReferenceIdeal.Gen Cert.ReferenceIdeal.ReadP Cert.Gcn Cert.ScatterGather Cert.GraphMean Idealize.ShloMosaic Idealize.ShloMosaic.ValueIdx

variable (x0 : (⟨S100000x64, .f32⟩ : BufTy).Contents (Elt Ideal)) (x1 : (⟨S2x1600000, .i32⟩ : BufTy).Contents (Elt Ideal))
  (x2 : (⟨S64x64, .f32⟩ : BufTy).Contents (Elt Ideal)) (x3 : (⟨S64, .f32⟩ : BufTy).Contents (Elt Ideal))
  (x4 : (⟨S64x32, .f32⟩ : BufTy).Contents (Elt Ideal)) (x5 : (⟨S32, .f32⟩ : BufTy).Contents (Elt Ideal))

/-! ## The normalising factor of a node -/

/-- The factor of node r: the inverse root of its degree, the number of edges (self-loop included) that point to it;
    zero where that number is not positive. -/
def factorOf (x1 : (⟨S2x1600000, .i32⟩ : BufTy).Contents (Elt Ideal)) : Fin 100000 → EReal :=
  fun r => invSqrtDeg (val_main_v11 (F := Ideal) x1 (ix1 r))

/-- The factor vector the program selects, read at node r, is that factor: the comparison is with the zero word, the
    inverse root is the extended reals', and the alternative is the zero word. -/
theorem factor_at (r : Fin 100000) : val_main_v15 (F := Ideal) x1 (ix1 r) = factorOf x1 r := by
  rw [val_main_v15_apply, val_main_v13_apply, val_main_v14_apply, val_main_call0_v1_apply, val_main_v12_apply]
  unfold factorOf invSqrtDeg
  generalize val_main_v11 (F := Ideal) x1 (ix1 r) = d
  show Scalar.select (FloatOps.cmpf .ogt d (Ideal.ofBits .f32 0x00000000#32)) (FloatOps.hostUnary .rsqrt d)
      (Ideal.ofBits .f32 0x00000000#32) = _
  rw [Ideal.ofBits_zero_f32, Ideal.cmpf_def, Ideal.hostUnary_rsqrt_def]

/-- Every node's factor is a non-negative real. -/
theorem factor_bounds (r : Fin 100000) : 0 ≤ factorOf x1 r ∧ factorOf x1 r ≠ ⊤ :=
  invSqrtDeg_nonneg_ne_top _

/-! ## The index columns: each layer re-derives the same sources and targets -/

/-- An edge whose target names node r has its wrapped target column clamp to r: the second factor of an edge that
    lands on r is read at r. -/
theorem target_wrapped (e : Fin 1700000) (r : Fin 100000)
    (hr : (val_main_v10 (F := Ideal) x1 (ix2 e (0 : Fin 1))).toInt = (r.val : Int)) :
    clampRow 100000 (by decide) (val_main_v28 (F := Ideal) x1) e = r := by
  refine clampRow_of_wrapped (val_main_v10 (F := Ideal) x1) (val_main_v28 (F := Ideal) x1) e r ?_ hr
  rw [val_main_v28_apply, val_main_v27_apply, val_main_v24_apply, val_main_v26_apply, val_main_v23_apply,
    val_main_v25_apply, val_main_v10_apply]
  rfl

/-- The first layer's zero array. -/
theorem zeros64 : val_main_v41 (F := Ideal) = fun _ => 0 := bcast_zero_f32 bcast_S_S100000x64

/-- The first layer's edge weights, constant along each edge's row: the product of the factor gathered at the
    edge's source and the factor gathered at its wrapped target. -/
theorem weights64 (e : Fin 1700000) (k : Fin 64) :
    val_main_v39 (F := Ideal) x1 (ix2 e k)
      = mulf (F := Ideal) (s := S1700000) (φ := .f32) (Host.gather gather_S100000_S1700000x1_S1700000_n_0_n_n_0_1_1 (val_main_v15 (F := Ideal) x1) (val_main_v21 (F := Ideal) x1))
          (Host.gather gather_S100000_S1700000x1_S1700000_n_0_n_n_0_1_1 (val_main_v15 (F := Ideal) x1) (val_main_v28 (F := Ideal) x1)) (ix1 e) := by
  rw [val_main_v39_apply, val_main_v38_apply]
  have hi : idx_main_v38 (idx_main_v39 (ix2 e k)) = ix1 e := funext fun a => by
    match a with
    | ⟨0, _⟩ => rfl
  rw [hi]
  rfl

/-! ## The first layer -/

/-- The first layer's result at node r, column k: the layer of the product array, with the program's own source and
    target columns. -/
theorem layer1_at (r : Fin 100000) (k : Fin 64) :
    val_main_v43 (F := Ideal) x0 x1 x2 (ix2 r k)
      = layer (N := 100000) (by decide) (factorOf x1) (val_main_v21 (F := Ideal) x1) (val_main_v10 (F := Ideal) x1)
          (fun r k => val_main_v0 (F := Ideal) x0 x2 (ix2 r k)) r k := by
  unfold val_main_v43 val_main_v40 val_main_v37
  exact layer_of_edge_weights (N := 100000) (M := 1700000) (C := 64) (w := 32) (by decide)
    gather_S100000x64_S1700000x1_S1700000x64_1_0_n_n_0_1_164 gather_S100000x64_S1700000x1_S1700000x64_1_0_n_n_0_1_164.wf rfl
    scatter_S100000x64_S1700000x1_S1700000x64_1_0_0_1 scatter_S100000x64_S1700000x1_S1700000x64_1_0_0_1.wf rfl
    gather_S100000_S1700000x1_S1700000_n_0_n_n_0_1_1 gather_S100000_S1700000x1_S1700000_n_0_n_n_0_1_1.wf rfl
    (val_main_v41 (F := Ideal)) zeros64
    (val_main_v0 (F := Ideal) x0 x2) (val_main_v15 (F := Ideal) x1) (factorOf x1) (factor_at x1) (factor_bounds x1)
    (val_main_v21 (F := Ideal) x1) (val_main_v10 (F := Ideal) x1) (val_main_v28 (F := Ideal) x1) (target_wrapped x1)
    (val_main_v39 (F := Ideal) x1) (weights64 x1) r k

/-! ## Between the layers: bias, rectifier, projection -/

/-- The product array at node r, column k: row r of the features against column k of the first weights. -/
theorem prod_at (r : Fin 100000) (k : Fin 64) :
    val_main_v0 (F := Ideal) x0 x2 (ix2 r k) = ∑ j : Fin 64, x0 (ix2 r j) * x2 (ix2 j k) := by
  rw [val_main_v0_apply]
  refine Finset.sum_congr rfl fun j _ => ?_
  have el : lidx_main_v0 (ix2 r k) j = ix2 r j := funext fun a => by
    match a with
    | ⟨0, _⟩ => rfl
    | ⟨1, _⟩ => rfl
  have er : ridx_main_v0 (ix2 r k) j = ix2 j k := funext fun a => by
    match a with
    | ⟨0, _⟩ => rfl
    | ⟨1, _⟩ => rfl
  rw [el, er]

/-- The hidden array at node r, class q: the first layer's row r plus the bias, cut below at zero, against column q
    of the second weights. -/
theorem hidden_at (r : Fin 100000) (q : Fin 32) :
    val_main_v48 (F := Ideal) x0 x1 x2 x3 x4 (ix2 r q)
      = ∑ k : Fin 64, max (layer (N := 100000) (by decide) (factorOf x1) (val_main_v21 (F := Ideal) x1) (val_main_v10 (F := Ideal) x1)
          (fun r k => val_main_v0 (F := Ideal) x0 x2 (ix2 r k)) r k + x3 (ix1 k)) 0 * x4 (ix2 k q) := by
  rw [val_main_v48_apply]
  refine Finset.sum_congr rfl fun k _ => ?_
  have el : lidx_main_v48 (ix2 r q) k = ix2 r k := funext fun a => by
    match a with
    | ⟨0, _⟩ => rfl
    | ⟨1, _⟩ => rfl
  have er : ridx_main_v48 (ix2 r q) k = ix2 k q := funext fun a => by
    match a with
    | ⟨0, _⟩ => rfl
    | ⟨1, _⟩ => rfl
  have eb : idx_main_v44 (idx_main_v45 (ix2 r k)) = ix1 k := funext fun a => by
    match a with
    | ⟨0, _⟩ => rfl
  rw [el, er, val_main_v47_apply, val_main_v46_apply, layer1_at, val_main_v45_apply, val_main_v44_apply, eb,
    val_main_call1_v0_apply]
  show max (_ + x3 (ix1 k)) (Ideal.ofBits .f32 0x00000000#32) * x4 (ix2 k q) = _
  rw [Ideal.ofBits_zero_f32]

/-! ## The second layer -/

/-- The second layer re-derives the target column, the two source columns, the wrapped target column and the factor
    vector from the same edge list by the same operations: they are the first layer's. -/
theorem targets2_eq : val_main_v90 (F := Ideal) x1 = val_main_v10 (F := Ideal) x1 := rfl
theorem sources2_eq : val_main_v84 (F := Ideal) x1 = val_main_v21 (F := Ideal) x1 := rfl
theorem sources2f_eq : val_main_v69 (F := Ideal) x1 = val_main_v21 (F := Ideal) x1 := rfl
theorem wrapped2_eq : val_main_v76 (F := Ideal) x1 = val_main_v28 (F := Ideal) x1 := rfl
theorem factor2_eq : val_main_v63 (F := Ideal) x1 = val_main_v15 (F := Ideal) x1 := rfl

/-- The second layer's zero array. -/
theorem zeros32 : val_main_v89 (F := Ideal) = fun _ => 0 := bcast_zero_f32 bcast_S_S100000x32

/-- The second layer's edge weights: the same product of the two gathered factors. -/
theorem weights32 (e : Fin 1700000) (k : Fin 32) :
    val_main_v87 (F := Ideal) x1 (ix2 e k)
      = mulf (F := Ideal) (s := S1700000) (φ := .f32) (Host.gather gather_S100000_S1700000x1_S1700000_n_0_n_n_0_1_1 (val_main_v15 (F := Ideal) x1) (val_main_v21 (F := Ideal) x1))
          (Host.gather gather_S100000_S1700000x1_S1700000_n_0_n_n_0_1_1 (val_main_v15 (F := Ideal) x1) (val_main_v28 (F := Ideal) x1)) (ix1 e) := by
  rw [val_main_v87_apply, val_main_v86_apply]
  have hi : idx_main_v86 (idx_main_v87 (ix2 e k)) = ix1 e := funext fun a => by
    match a with
    | ⟨0, _⟩ => rfl
  rw [hi]
  unfold val_main_v78 val_main_v70 val_main_v77
  rw [factor2_eq, sources2f_eq, wrapped2_eq]

/-- The second layer's result at node r, class q: the layer of the hidden array. -/
theorem layer2_at (r : Fin 100000) (q : Fin 32) :
    val_main_v91 (F := Ideal) x0 x1 x2 x3 x4 (ix2 r q)
      = layer (N := 100000) (by decide) (factorOf x1) (val_main_v21 (F := Ideal) x1) (val_main_v10 (F := Ideal) x1)
          (fun r q => val_main_v48 (F := Ideal) x0 x1 x2 x3 x4 (ix2 r q)) r q := by
  unfold val_main_v91 val_main_v88 val_main_v85
  rw [targets2_eq, sources2_eq]
  exact layer_of_edge_weights (N := 100000) (M := 1700000) (C := 32) (w := 32) (by decide)
    gather_S100000x32_S1700000x1_S1700000x32_1_0_n_n_0_1_132 gather_S100000x32_S1700000x1_S1700000x32_1_0_n_n_0_1_132.wf rfl
    scatter_S100000x32_S1700000x1_S1700000x32_1_0_0_1 scatter_S100000x32_S1700000x1_S1700000x32_1_0_0_1.wf rfl
    gather_S100000_S1700000x1_S1700000_n_0_n_n_0_1_1 gather_S100000_S1700000x1_S1700000_n_0_n_n_0_1_1.wf rfl
    (val_main_v89 (F := Ideal)) zeros32
    (val_main_v48 (F := Ideal) x0 x1 x2 x3 x4) (val_main_v15 (F := Ideal) x1) (factorOf x1) (factor_at x1) (factor_bounds x1)
    (val_main_v21 (F := Ideal) x1) (val_main_v10 (F := Ideal) x1) (val_main_v28 (F := Ideal) x1) (target_wrapped x1)
    (val_main_v87 (F := Ideal) x1) (weights32 x1) r q

/-! ## The result -/

/-- The reference's result at node r, class q is the two-layer network of the arguments, with the factor of each node
    and the source and target columns as the program derives them from the edge list. -/
theorem result_at (r : Fin 100000) (q : Fin 32) :
    val_main_v94 (F := Ideal) x0 x1 x2 x3 x4 x5 (ix2 r q)
      = gcn (N := 100000) (by decide) (factorOf x1) (val_main_v21 (F := Ideal) x1) (val_main_v10 (F := Ideal) x1) x0 x2 x3 x4 x5 r q := by
  have h0 : (fun (r : Fin 100000) (k : Fin 64) => val_main_v0 (F := Ideal) x0 x2 (ix2 r k))
      = fun r k => ∑ j : Fin 64, x0 (ix2 r j) * x2 (ix2 j k) := funext fun r => funext fun k => prod_at x0 x2 r k
  have h1 : (fun (r : Fin 100000) (q : Fin 32) => val_main_v48 (F := Ideal) x0 x1 x2 x3 x4 (ix2 r q))
      = fun r q => ∑ k : Fin 64, max (layer (N := 100000) (by decide) (factorOf x1) (val_main_v21 (F := Ideal) x1) (val_main_v10 (F := Ideal) x1)
          (fun r k => ∑ j : Fin 64, x0 (ix2 r j) * x2 (ix2 j k)) r k + x3 (ix1 k)) 0 * x4 (ix2 k q) :=
    funext fun r => funext fun q => by rw [hidden_at, h0]
  have eb : idx_main_v92 (idx_main_v93 (ix2 r q)) = ix1 q := funext fun a => by
    match a with
    | ⟨0, _⟩ => rfl
  rw [val_main_v94_apply, layer2_at, h1, val_main_v93_apply, val_main_v92_apply, eb]
  rfl

end Cert.ReferenceIdeal.RefValue

end
-- ==== Proof.lean ====
/-
  The certificate of a two-layer graph convolution (100000 nodes, 1.6 million edges plus one self-loop per node,
  64 → 64 → 32 features): a Pallas program that runs the two dense projections as kernels and leaves the
  gather / scatter-add to the host, against a plain jnp reference.

  What is proved. Both programs run (terminate, nothing faulting, the six argument arrays unchanged): the kernel
  program's two frames are the generated ones; the reference's is its run with the result dropped. The idealization
  rewrote nothing, so `preserves` is trivial. At the ideal instance both results are, at node r and class q,
      layer(relu(layer(x·W1) + b1)·W2)[r, q] + b2[q],     layer(y)[r, k] = c r · Σ_{e lands on r} y[s e, k] · c (s e),
  c the inverse root of the degree: the kernel's program scales by c before the gather and after the scatter, the
  reference weights every gathered row by c (s e) · c (d e); for an edge that lands on r the target is r, and the
  non-negative real factor c r distributes over the finite sum of extended reals (LibGcnLayer). The index columns and the
  degree are the same terms of the edge list in both programs. The precondition (finite inputs) is not used.
-/
import proofs.«148862_j78297253806422_2_alg».proof.Defs
import proofs.«148862_j78297253806422_2_alg».proof.Proof.Gen.Kernel
import proofs.«148862_j78297253806422_2_alg».proof.Proof.Gen.Kernel.Skeleton
import proofs.«148862_j78297253806422_2_alg».proof.Proof.Gen.Kernel.Launch
import proofs.«148862_j78297253806422_2_alg».proof.Proof.Gen.Kernel.Points
import proofs.«148862_j78297253806422_2_alg».proof.Proof.Gen.Kernel.Frame
import proofs.«148862_j78297253806422_2_alg».proof.Proof.Gen.KernelIdeal
import proofs.«148862_j78297253806422_2_alg».proof.Proof.Gen.KernelIdeal.Skeleton
import proofs.«148862_j78297253806422_2_alg».proof.Proof.Gen.KernelIdeal.Launch
import proofs.«148862_j78297253806422_2_alg».proof.Proof.Gen.KernelIdeal.Points
import proofs.«148862_j78297253806422_2_alg».proof.Proof.Gen.KernelIdeal.Frame
import proofs.«148862_j78297253806422_2_alg».proof.Proof.Gen.ReferenceIdeal
import proofs.«148862_j78297253806422_2_alg».proof.Proof.Gen.Pre_finite_inputs
import proofs.«148862_j78297253806422_2_alg».proof.Proof.KernelRun
import proofs.«148862_j78297253806422_2_alg».proof.Proof.KernelValue
import proofs.«148862_j78297253806422_2_alg».proof.Proof.RefRun
import proofs.«148862_j78297253806422_2_alg».proof.Proof.RefValue
import Idealize.ShloMosaic.Adequacy
import Idealize.ShloMosaic.Init

noncomputable section

namespace Cert.Proof

open Idealize.ShloMosaic Idealize.ShloMosaic.ValueIdx Idealize.SL.Sem

/-! ## The two programs build the same index columns and the same degree -/

/-- The gathers' index column: the sources with self-loops, negatives wrapped, as a column. -/
theorem same_sources (x1 : (⟨Cert.KernelIdeal.S2x1600000, .i32⟩ : BufTy).Contents (Elt Ideal)) :
    Cert.KernelIdeal.HostValue.col (Cert.KernelIdeal.HostValue.wrapNeg (Cert.KernelIdeal.HostValue.srcAug x1))
      = Cert.ReferenceIdeal.ReadP.val_main_v21 (F := Ideal) x1 := rfl

/-- The scatters' index column: the targets with self-loops as a column. -/
theorem same_targets (x1 : (⟨Cert.KernelIdeal.S2x1600000, .i32⟩ : BufTy).Contents (Elt Ideal)) :
    Cert.KernelIdeal.HostValue.col (Cert.KernelIdeal.HostValue.dstAug x1)
      = Cert.ReferenceIdeal.ReadP.val_main_v10 (F := Ideal) x1 := rfl

/-- The degree: ones added into zeros along the targets. -/
theorem same_degree (x1 : (⟨Cert.KernelIdeal.S2x1600000, .i32⟩ : BufTy).Contents (Elt Ideal)) :
    Cert.KernelIdeal.HostValue.degree x1 = Cert.ReferenceIdeal.ReadP.val_main_v11 (F := Ideal) x1 := rfl

/-- Hence the same normalising factor. -/
theorem same_factor (x1 : (⟨Cert.KernelIdeal.S2x1600000, .i32⟩ : BufTy).Contents (Elt Ideal)) :
    Cert.KernelIdeal.HostValue.factorOf x1 = Cert.ReferenceIdeal.RefValue.factorOf x1 := by
  funext r
  unfold Cert.KernelIdeal.HostValue.factorOf Cert.ReferenceIdeal.RefValue.factorOf
  rw [same_degree]

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both idealized programs end with the network's value in every entry of the result. -/
theorem algebraic : Cert.algebraic_KernelIdeal_ReferenceIdeal := by
  intro m ρ m' ρ' _ hagree
  refine ⟨fun c => Cert.KernelIdeal.Gen.W7 m ρ c (Proc.devRef .tc Cert.KernelIdeal.main_v53),
    Cert.KernelIdeal.Gen.run_named m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v94_eq, (hagree c).1, (hagree c).2.1, (hagree c).2.2.1, (hagree c).2.2.2.1,
    (hagree c).2.2.2.2.1, (hagree c).2.2.2.2.2]
  refine funext fun (i : (⟨2, ![100000, 32]⟩ : Shape).Idx) => ?_
  obtain ⟨r, q, rfl⟩ : ∃ (r : Fin 100000) (q : Fin 32), i = ix2 r q := ⟨i 0, i 1, eq_ix2 i⟩
  refine (Cert.ReferenceIdeal.RefValue.result_at _ _ _ _ _ _ r q).trans ?_
  refine Eq.trans ?_ (Cert.KernelIdeal.HostValue.result_at m ρ c _ _ _ _ _ _ rfl rfl rfl rfl rfl rfl r q).symm
  rw [same_sources, same_targets, same_factor]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
